-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S32x16 : Shape := ⟨2, ![32, 16]⟩
abbrev S2x2048 : Shape := ⟨2, ![2, 2048]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S32x16 .f32) (main_arg4 : IVec S2x2048 32) (main_arg5 : IVec S2x2048 32) (main_arg6 : IVec S2x1x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_v13 main_v16
-- ==== Kernel.lean ====
abbrev S2x16x2048x64 : Shape := ⟨4, ![2, 16, 2048, 64]⟩
abbrev S32x16 : Shape := ⟨2, ![32, 16]⟩
abbrev S2x2048 : Shape := ⟨2, ![2, 2048]⟩
abbrev S2x1x2048x2048 : Shape := ⟨4, ![2, 1, 2048, 2048]⟩
abbrev S2x1x2048 : Shape := ⟨3, ![2, 1, 2048]⟩
abbrev S2x2048x1 : Shape := ⟨3, ![2, 2048, 1]⟩
abbrev S2x2048x2048 : Shape := ⟨3, ![2, 2048, 2048]⟩
abbrev S_ : Shape := ⟨0, ![]⟩
abbrev S2x2048x2048x1 : Shape := ⟨4, ![2, 2048, 2048, 1]⟩
abbrev S2x2048x2048x16 : Shape := ⟨4, ![2, 2048, 2048, 16]⟩
abbrev S2x16x2048x2048 : Shape := ⟨4, ![2, 16, 2048, 2048]⟩
abbrev S1x1x256x64 : Shape := ⟨4, ![1, 1, 256, 64]⟩
abbrev S1x1x2048x64 : Shape := ⟨4, ![1, 1, 2048, 64]⟩
abbrev S1x1x256x2048 : Shape := ⟨4, ![1, 1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 60
  | .vmem => 14
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x16, .f32⟩
  | .hbm, ⟨4, _⟩ => ⟨S2x2048, .i32⟩
  | .hbm, ⟨5, _⟩ => ⟨S2x2048, .i32⟩
  | .hbm, ⟨6, _⟩ => ⟨S2x1x2048x2048, .i1⟩
  | .hbm, ⟨7, _⟩ => ⟨S2x1x2048, .i32⟩
  | .hbm, ⟨8, _⟩ => ⟨S2x2048x1, .i32⟩
  | .hbm, ⟨9, _⟩ => ⟨S2x2048x2048, .i32⟩
  | .hbm, ⟨10, _⟩ => ⟨S2x2048x2048, .i32⟩
  | .hbm, ⟨11, _⟩ => ⟨S2x2048x2048, .i32⟩
  | .hbm, ⟨12, _⟩ => ⟨S2x2048x2048, .i32⟩
  | .hbm, ⟨13, _⟩ => ⟨S_, .i32⟩
  | .hbm, ⟨14, _⟩ => ⟨S2x2048x2048, .i32⟩
  | .hbm, ⟨15, _⟩ => ⟨S2x2048x2048, .i1⟩
  | .hbm, ⟨16, _⟩ => ⟨S2x2048x2048, .i32⟩
  | .hbm, ⟨17, _⟩ => ⟨S_, .i32⟩
  | .hbm, ⟨18, _⟩ => ⟨S2x2048x2048, .i32⟩
  | .hbm, ⟨19, _⟩ => ⟨S2x2048x2048, .i32⟩
  | .hbm, ⟨20, _⟩ => ⟨S2x2048x2048, .i32⟩
  | .hbm, ⟨21, _⟩ => ⟨S_, .i32⟩
  | .hbm, ⟨22, _⟩ => ⟨S2x2048x2048, .i32⟩
  | .hbm, ⟨23, _⟩ => ⟨S2x2048x2048, .i1⟩
  | .hbm, ⟨24, _⟩ => ⟨S_, .i32⟩
  | .hbm, ⟨25, _⟩ => ⟨S2x2048x2048, .i32⟩
  | .hbm, ⟨26, _⟩ => ⟨S2x2048x2048, .i32⟩
  | .hbm, ⟨27, _⟩ => ⟨S2x2048x2048, .f32⟩
  | .hbm, ⟨28, _⟩ => ⟨S_, .f32⟩
  | .hbm, ⟨29, _⟩ => ⟨S2x2048x2048, .f32⟩
  | .hbm, ⟨30, _⟩ => ⟨S2x2048x2048, .f32⟩
  | .hbm, ⟨31, _⟩ => ⟨S2x2048x2048, .f32⟩
  | .hbm, ⟨32, _⟩ => ⟨S_, .f32⟩
  | .hbm, ⟨33, _⟩ => ⟨S2x2048x2048, .f32⟩
  | .hbm, ⟨34, _⟩ => ⟨S2x2048x2048, .f32⟩
  | .hbm, ⟨35, _⟩ => ⟨S_, .f32⟩
  | .hbm, ⟨36, _⟩ => ⟨S2x2048x2048, .f32⟩
  | .hbm, ⟨37, _⟩ => ⟨S2x2048x2048, .f32⟩
  | .hbm, ⟨38, _⟩ => ⟨S2x2048x2048, .i32⟩
  | .hbm, ⟨39, _⟩ => ⟨S_, .i32⟩
  | .hbm, ⟨40, _⟩ => ⟨S2x2048x2048, .i32⟩
  | .hbm, ⟨41, _⟩ => ⟨S2x2048x2048, .i32⟩
  | .hbm, ⟨42, _⟩ => ⟨S_, .i32⟩
  | .hbm, ⟨43, _⟩ => ⟨S2x2048x2048, .i32⟩
  | .hbm, ⟨44, _⟩ => ⟨S2x2048x2048, .i32⟩
  | .hbm, ⟨45, _⟩ => ⟨S2x2048x2048, .i32⟩
  | .hbm, ⟨46, _⟩ => ⟨S2x2048x2048, .i32⟩
  | .hbm, ⟨47, _⟩ => ⟨S_, .i32⟩
  | .hbm, ⟨48, _⟩ => ⟨S2x2048x2048, .i32⟩
  | .hbm, ⟨49, _⟩ => ⟨S2x2048x2048, .i1⟩
  | .hbm, ⟨50, _⟩ => ⟨S_, .i32⟩
  | .hbm, ⟨51, _⟩ => ⟨S2x2048x2048, .i32⟩
  | .hbm, ⟨52, _⟩ => ⟨S2x2048x2048, .i32⟩
  | .hbm, ⟨53, _⟩ => ⟨S2x2048x2048, .i32⟩
  | .hbm, ⟨54, _⟩ => ⟨S2x2048x2048x1, .i32⟩
  | .hbm, ⟨55, _⟩ => ⟨S2x2048x2048x16, .f32⟩
  | .hbm, ⟨56, _⟩ => ⟨S2x16x2048x2048, .f32⟩
  | .hbm, ⟨57, _⟩ => ⟨S2x1x2048x2048, .i32⟩
  | .hbm, ⟨58, _⟩ => ⟨S2x16x2048x64, .f32⟩
  | .hbm, ⟨59, _⟩ => ⟨S2x16x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x256x2048, .f32⟩
  | .local _ .vmem, ⟨7, _⟩ => ⟨S1x1x256x2048, .f32⟩
  | .local _ .vmem, ⟨8, _⟩ => ⟨S1x1x256x2048, .i32⟩
  | .local _ .vmem, ⟨9, _⟩ => ⟨S1x1x256x2048, .i32⟩
  | .local _ .vmem, ⟨10, _⟩ => ⟨S1x1x256x64, .f32⟩
  | .local _ .vmem, ⟨11, _⟩ => ⟨S1x1x256x64, .f32⟩
  | .local _ .vmem, ⟨12, _⟩ => ⟨S1x1x256x2048, .f32⟩
  | .local _ .vmem, ⟨13, _⟩ => ⟨S1x1x256x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40_0 : Ref sig .tc := ⟨.hbm, 58, rfl⟩
abbrev main_v40_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  bcast_S2x2048_S2x1x2048_0_2 : S2x2048.BroadcastsInDim S2x1x2048 (![0, 2] : Fin 2 → Fin S2x1x2048.rank)
  bcast_S2x2048_S2x2048x1_0_1 : S2x2048.BroadcastsInDim S2x2048x1 (![0, 1] : Fin 2 → Fin S2x2048x1.rank)
  bcast_S2x1x2048_S2x2048x2048_0_1_2 : S2x1x2048.BroadcastsInDim S2x2048x2048 (![0, 1, 2] : Fin 3 → Fin S2x2048x2048.rank)
  bcast_S2x2048x1_S2x2048x2048_0_1_2 : S2x2048x1.BroadcastsInDim S2x2048x2048 (![0, 1, 2] : Fin 3 → Fin S2x2048x2048.rank)
  bcast_S_S2x2048x2048 : S_.BroadcastsInDim S2x2048x2048 (![] : Fin 0 → Fin S2x2048x2048.rank)
  natLt_1_32 : 1 < 32
  bcast_S2x2048x2048_S2x2048x2048x1_0_1_2 : S2x2048x2048.BroadcastsInDim S2x2048x2048x1 (![0, 1, 2] : Fin 3 → Fin S2x2048x2048x1.rank)
  transposes_S2x2048x2048x16_S2x16x2048x2048_0_3_1_2 : S2x2048x2048x16.Transposes [0, 3, 1, 2] S2x16x2048x2048
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  bitsLt_bf16_f32 : FTy.bits .bf16 < FTy.bits .f32
  reduces_S256x2048_S256 : S256x2048.Reduces [1] S256
  shapeCasts_S256_S256x1 : S256.ShapeCasts S256x1
  broadcasts_S256x1_S256x2048 : S256x1.Broadcasts S256x2048
  shapeCasts_S256x2048_S1x1x256x2048 : S256x2048.ShapeCasts S1x1x256x2048
  shapeCasts_S256x64_S1x1x256x64 : S256x64.ShapeCasts S1x1x256x64
  gather_S32x16_S2x2048x2048x1_S2x2048x2048x16_3_0_n_n_0_3_116_wf : GatherDims.WF S32x16 S2x2048x2048x1 S2x2048x2048x16 [3] [0] [] [0] [] 3 ![1, 16]
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S2x16x2048x64.size a
  hwx0_0 : ∀ i : grid0.Coords, EltTy.bits .f32 = 32 ∨ (Rect.block (s := S2x16x2048x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S2x16x2048x2048.size a
  hwx0_3 : ∀ i : grid0.Coords, EltTy.bits .f32 = 32 ∨ (Rect.block (s := S2x16x2048x2048) S1x1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x2048.size a ≤ S2x1x2048x2048.size a
  hwx0_4 : ∀ i : grid0.Coords, EltTy.bits .i32 = 32 ∨ (Rect.block (s := S2x1x2048x2048) S1x1x256x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x64.size a ≤ S2x16x2048x64.size a
  hwx0_5 : ∀ i : grid0.Coords, EltTy.bits .f32 = 32 ∨ (Rect.block (s := S2x16x2048x64) S1x1x256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256x2048.size a ≤ S2x16x2048x2048.size a
  hwx0_6 : ∀ i : grid0.Coords, EltTy.bits .f32 = 32 ∨ (Rect.block (s := S2x16x2048x2048) S1x1x256x2048.size (cc0_transform_6 i) (hinb0_6 i)).WholeWords (EltTy.packing .f32)

variable [Facts₀]

def gather_S32x16_S2x2048x2048x1_S2x2048x2048x16_3_0_n_n_0_3_116 : GatherDims S32x16 S2x2048x2048x1 S2x2048x2048x16 where
  offsetDims := [3]
  collapsedSliceDims := [0]
  operandBatchingDims := []
  startIndicesBatchingDims := []
  startIndexMap := [0]
  indexVectorDim := 3
  sliceSizes := ![1, 16]
  wf := gather_S32x16_S2x2048x2048x1_S2x2048x2048x16_3_0_n_n_0_3_116_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x1x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40_0) S1x1x256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v40_1) S1x1x256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S32x16 : Shape := ⟨2, ![32, 16]⟩
abbrev S2x2048 : Shape := ⟨2, ![2, 2048]⟩
abbrev S2x1x2048x2048 : Shape := ⟨4, ![2, 1, 2048, 2048]⟩
abbrev S_ : Shape := ⟨0, ![]⟩
abbrev S2x16x2048x2048 : Shape := ⟨4, ![2, 16, 2048, 2048]⟩
abbrev S2x1x2048 : Shape := ⟨3, ![2, 1, 2048]⟩
abbrev S2x2048x1 : Shape := ⟨3, ![2, 2048, 1]⟩
abbrev S2x2048x2048 : Shape := ⟨3, ![2, 2048, 2048]⟩
abbrev S2x2048x2048x1 : Shape := ⟨4, ![2, 2048, 2048, 1]⟩
abbrev S2x2048x2048x16 : Shape := ⟨4, ![2, 2048, 2048, 16]⟩
abbrev S2x16x2048 : Shape := ⟨3, ![2, 16, 2048]⟩
abbrev S2x16x2048x1 : Shape := ⟨4, ![2, 16, 2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x16, .f32⟩
  | .hbm, ⟨4, _⟩ => ⟨S2x2048, .i32⟩
  | .hbm, ⟨5, _⟩ => ⟨S2x2048, .i32⟩
  | .hbm, ⟨6, _⟩ => ⟨S2x1x2048x2048, .i1⟩
  | .hbm, ⟨7, _⟩ => ⟨S_, .f32⟩
  | .hbm, ⟨8, _⟩ => ⟨S2x16x2048x64, .f32⟩
  | .hbm, ⟨9, _⟩ => ⟨S2x16x2048x64, .f32⟩
  | .hbm, ⟨10, _⟩ => ⟨S2x16x2048x2048, .f32⟩
  | .hbm, ⟨11, _⟩ => ⟨S2x1x2048, .i32⟩
  | .hbm, ⟨12, _⟩ => ⟨S2x2048x1, .i32⟩
  | .hbm, ⟨13, _⟩ => ⟨S2x2048x2048, .i32⟩
  | .hbm, ⟨14, _⟩ => ⟨S2x2048x2048, .i32⟩
  | .hbm, ⟨15, _⟩ => ⟨S2x2048x2048, .i32⟩
  | .hbm, ⟨16, _⟩ => ⟨S2x2048x2048, .i32⟩
  | .hbm, ⟨17, _⟩ => ⟨S_, .i32⟩
  | .hbm, ⟨18, _⟩ => ⟨S2x2048x2048, .i32⟩
  | .hbm, ⟨19, _⟩ => ⟨S2x2048x2048, .i1⟩
  | .hbm, ⟨20, _⟩ => ⟨S2x2048x2048, .i32⟩
  | .hbm, ⟨21, _⟩ => ⟨S_, .i32⟩
  | .hbm, ⟨22, _⟩ => ⟨S2x2048x2048, .i32⟩
  | .hbm, ⟨23, _⟩ => ⟨S2x2048x2048, .i32⟩
  | .hbm, ⟨24, _⟩ => ⟨S2x2048x2048, .i32⟩
  | .hbm, ⟨25, _⟩ => ⟨S_, .i32⟩
  | .hbm, ⟨26, _⟩ => ⟨S2x2048x2048, .i32⟩
  | .hbm, ⟨27, _⟩ => ⟨S2x2048x2048, .i1⟩
  | .hbm, ⟨28, _⟩ => ⟨S2x2048x2048, .f32⟩
  | .hbm, ⟨29, _⟩ => ⟨S_, .f32⟩
  | .hbm, ⟨30, _⟩ => ⟨S2x2048x2048, .f32⟩
  | .hbm, ⟨31, _⟩ => ⟨S2x2048x2048, .f32⟩
  | .hbm, ⟨32, _⟩ => ⟨S2x2048x2048, .f32⟩
  | .hbm, ⟨33, _⟩ => ⟨S_, .f32⟩
  | .hbm, ⟨34, _⟩ => ⟨S2x2048x2048, .f32⟩
  | .hbm, ⟨35, _⟩ => ⟨S2x2048x2048, .f32⟩
  | .hbm, ⟨36, _⟩ => ⟨S_, .f32⟩
  | .hbm, ⟨37, _⟩ => ⟨S2x2048x2048, .f32⟩
  | .hbm, ⟨38, _⟩ => ⟨S2x2048x2048, .f32⟩
  | .hbm, ⟨39, _⟩ => ⟨S2x2048x2048, .i32⟩
  | .hbm, ⟨40, _⟩ => ⟨S_, .i32⟩
  | .hbm, ⟨41, _⟩ => ⟨S2x2048x2048, .i32⟩
  | .hbm, ⟨42, _⟩ => ⟨S2x2048x2048, .i32⟩
  | .hbm, ⟨43, _⟩ => ⟨S_, .i32⟩
  | .hbm, ⟨44, _⟩ => ⟨S2x2048x2048, .i32⟩
  | .hbm, ⟨45, _⟩ => ⟨S2x2048x2048, .i32⟩
  | .hbm, ⟨46, _⟩ => ⟨S2x2048x2048, .i32⟩
  | .hbm, ⟨47, _⟩ => ⟨S2x2048x2048, .i32⟩
  | .hbm, ⟨48, _⟩ => ⟨S_, .i32⟩
  | .hbm, ⟨49, _⟩ => ⟨S2x2048x2048, .i32⟩
  | .hbm, ⟨50, _⟩ => ⟨S2x2048x2048, .i1⟩
  | .hbm, ⟨51, _⟩ => ⟨S_, .i32⟩
  | .hbm, ⟨52, _⟩ => ⟨S2x2048x2048, .i32⟩
  | .hbm, ⟨53, _⟩ => ⟨S2x2048x2048, .i32⟩
  | .hbm, ⟨54, _⟩ => ⟨S2x2048x2048, .i32⟩
  | .hbm, ⟨55, _⟩ => ⟨S2x2048x2048x1, .i32⟩
  | .hbm, ⟨56, _⟩ => ⟨S2x2048x2048x16, .f32⟩
  | .hbm, ⟨57, _⟩ => ⟨S2x16x2048x2048, .f32⟩
  | .hbm, ⟨58, _⟩ => ⟨S2x16x2048x2048, .f32⟩
  | .hbm, ⟨59, _⟩ => ⟨S_, .f32⟩
  | .hbm, ⟨60, _⟩ => ⟨S_, .f32⟩
  | .hbm, ⟨61, _⟩ => ⟨S2x16x2048x2048, .i1⟩
  | .hbm, ⟨62, _⟩ => ⟨S2x16x2048x2048, .f32⟩
  | .hbm, ⟨63, _⟩ => ⟨S2x16x2048x2048, .f32⟩
  | .hbm, ⟨64, _⟩ => ⟨S_, .f32⟩
  | .hbm, ⟨65, _⟩ => ⟨S2x16x2048, .f32⟩
  | .hbm, ⟨66, _⟩ => ⟨S_, .f32⟩
  | .hbm, ⟨67, _⟩ => ⟨S2x16x2048, .f32⟩
  | .hbm, ⟨68, _⟩ => ⟨S2x16x2048, .f32⟩
  | .hbm, ⟨69, _⟩ => ⟨S2x16x2048x1, .f32⟩
  | .hbm, ⟨70, _⟩ => ⟨S2x16x2048x2048, .f32⟩
  | .hbm, ⟨71, _⟩ => ⟨S2x16x2048x2048, .f32⟩
  | .hbm, ⟨72, _⟩ => ⟨S2x16x2048x2048, .f32⟩
  | .hbm, ⟨73, _⟩ => ⟨S_, .f32⟩
  | .hbm, ⟨74, _⟩ => ⟨S2x16x2048, .f32⟩
  | .hbm, ⟨75, _⟩ => ⟨S2x16x2048x1, .f32⟩
  | .hbm, ⟨76, _⟩ => ⟨S2x16x2048x2048, .f32⟩
  | .hbm, ⟨77, _⟩ => ⟨S2x16x2048x2048, .f32⟩
  | .hbm, ⟨78, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_12 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]

class Facts₀ : Prop where
  bcast_S_S2x16x2048x64 : S_.BroadcastsInDim S2x16x2048x64 (![] : Fin 0 → Fin S2x16x2048x64.rank)
  bcast_S2x2048_S2x1x2048_0_2 : S2x2048.BroadcastsInDim S2x1x2048 (![0, 2] : Fin 2 → Fin S2x1x2048.rank)
  bcast_S2x2048_S2x2048x1_0_1 : S2x2048.BroadcastsInDim S2x2048x1 (![0, 1] : Fin 2 → Fin S2x2048x1.rank)
  bcast_S2x1x2048_S2x2048x2048_0_1_2 : S2x1x2048.BroadcastsInDim S2x2048x2048 (![0, 1, 2] : Fin 3 → Fin S2x2048x2048.rank)
  bcast_S2x2048x1_S2x2048x2048_0_1_2 : S2x2048x1.BroadcastsInDim S2x2048x2048 (![0, 1, 2] : Fin 3 → Fin S2x2048x2048.rank)
  bcast_S_S2x2048x2048 : S_.BroadcastsInDim S2x2048x2048 (![] : Fin 0 → Fin S2x2048x2048.rank)
  natLt_1_32 : 1 < 32
  bcast_S2x2048x2048_S2x2048x2048x1_0_1_2 : S2x2048x2048.BroadcastsInDim S2x2048x2048x1 (![0, 1, 2] : Fin 3 → Fin S2x2048x2048x1.rank)
  transposes_S2x2048x2048x16_S2x16x2048x2048_0_3_1_2 : S2x2048x2048x16.Transposes [0, 3, 1, 2] S2x16x2048x2048
  bcast_S2x1x2048x2048_S2x16x2048x2048_0_1_2_3 : S2x1x2048x2048.BroadcastsInDim S2x16x2048x2048 (![0, 1, 2, 3] : Fin 4 → Fin S2x16x2048x2048.rank)
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  gather_S32x16_S2x2048x2048x1_S2x2048x2048x16_3_0_n_n_0_3_116_wf : GatherDims.WF S32x16 S2x2048x2048x1 S2x2048x2048x16 [3] [0] [] [0] [] 3 ![1, 16]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def gather_S32x16_S2x2048x2048x1_S2x2048x2048x16_3_0_n_n_0_3_116 : GatherDims S32x16 S2x2048x2048x1 S2x2048x2048x16 where
  offsetDims := [3]
  collapsedSliceDims := [0]
  operandBatchingDims := []
  startIndicesBatchingDims := []
  startIndexMap := [0]
  indexVectorDim := 3
  sliceSizes := ![1, 16]
  wf := gather_S32x16_S2x2048x2048x1_S2x2048x2048x16_3_0_n_n_0_3_116_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnSpec.lean ====
/-
  The mathematics both programs compute, as functions of the argument arrays, index by index over the extended reals.

  For a batch `b`, a head `h` and a query row `q`, the score against key `k` is the scaled inner product
  `∑ d, (Q[b,h,q,d] / 8) · K[b,h,k,d]` plus the position bias `PB[b,h,q,k]`, replaced by the fill constant where the
  mask `Mk[b,0,q,k]` is set (the mask has no head axis). The attention weights are the softmax of the score row,
  taken the numerically stable way: with `M` the maximum of the row (a fold of `max` from `-∞`), the weight of key `k`
  is `exp (s k - M) / ∑ j, exp (s j - M)`. The output is the weighted sum of the value rows,
  `∑ k, weight k · V[b,h,k,d]`.

  The three float literals are kept as their bit patterns: the same pattern stands on both sides of every
  equation below, so none is ever evaluated here.
-/
import Idealize.ShloMosaic.PureOps.Ideal
import Idealize.ShloMosaic.Lib.ValueIdx
import Mathlib.Data.Finset.Fold

noncomputable section

namespace Cert.AttnSpec

open Idealize.ShloMosaic Idealize.ShloMosaic.ValueIdx

/-- Queries, keys, values and the output: batch × head × position × feature. -/
abbrev SQ : Shape := ⟨4, ![2, 16, 2048, 64]⟩
/-- Scores, attention weights and the position bias: batch × head × query × key. -/
abbrev SA : Shape := ⟨4, ![2, 16, 2048, 2048]⟩
/-- The mask: batch × 1 × query × key. -/
abbrev SM : Shape := ⟨4, ![2, 1, 2048, 2048]⟩

/-- The score a masked position is given (the pattern of `-1e9`). -/
def fill : EReal := Ideal.ofBits .f32 0xCE6E6B28#32
/-- The value a row maximum is folded from (the pattern of `-∞`). -/
def negInf : EReal := Ideal.ofBits .f32 0xFF800000#32
/-- The temperature the queries are divided by (the pattern of `8`). -/
def eight : EReal := Ideal.ofBits .f32 0x41000000#32

/-- The maximum of a row of scores. -/
def rowMax (s : Fin 2048 → EReal) : EReal := (Finset.univ : Finset (Fin 2048)).fold max negInf s

/-- The stable softmax of a row of scores, at key `k`. -/
def soft (s : Fin 2048 → EReal) (k : Fin 2048) : EReal :=
  Ideal.div (Ideal.exp (s k - rowMax s)) (∑ j : Fin 2048, Ideal.exp (s j - rowMax s))

/-- The masked, biased, scaled score of query `q` against key `k`. -/
def score (Q K : SQ.Idx → EReal) (PB : SA.Idx → EReal) (Mk : SM.Idx → BitVec 1)
    (b : Fin 2) (h : Fin 16) (q k : Fin 2048) : EReal :=
  Scalar.select (Mk (ix4 b (0 : Fin 1) q k)) fill
    ((∑ d : Fin 64, Ideal.div (Q (ix4 b h q d)) eight * K (ix4 b h k d)) + PB (ix4 b h q k))

/-- The attention weight of query `q` on key `k`. -/
def attnAt (Q K : SQ.Idx → EReal) (PB : SA.Idx → EReal) (Mk : SM.Idx → BitVec 1)
    (b : Fin 2) (h : Fin 16) (q k : Fin 2048) : EReal :=
  soft (score Q K PB Mk b h q) k

/-- Feature `d` of the output row of query `q`. -/
def outAt (Q K Vv : SQ.Idx → EReal) (PB : SA.Idx → EReal) (Mk : SM.Idx → BitVec 1)
    (b : Fin 2) (h : Fin 16) (q : Fin 2048) (d : Fin 64) : EReal :=
  ∑ k : Fin 2048, attnAt Q K PB Mk b h q k * Vv (ix4 b h k d)

/-- The attention weights as one array. -/
def attn (Q K : SQ.Idx → EReal) (PB : SA.Idx → EReal) (Mk : SM.Idx → BitVec 1) : SA.Idx → EReal :=
  fun i => attnAt Q K PB Mk (i 0) (i 1) (i 2) (i 3)

/-- The output as one array. -/
def outv (Q K Vv : SQ.Idx → EReal) (PB : SA.Idx → EReal) (Mk : SM.Idx → BitVec 1) : SQ.Idx → EReal :=
  fun i => outAt Q K Vv PB Mk (i 0) (i 1) (i 2) (i 3)

theorem attn_ix4 (Q K : SQ.Idx → EReal) (PB : SA.Idx → EReal) (Mk : SM.Idx → BitVec 1)
    (b : Fin 2) (h : Fin 16) (q k : Fin 2048) : attn Q K PB Mk (ix4 b h q k) = attnAt Q K PB Mk b h q k := rfl

theorem outv_ix4 (Q K Vv : SQ.Idx → EReal) (PB : SA.Idx → EReal) (Mk : SM.Idx → BitVec 1)
    (b : Fin 2) (h : Fin 16) (q : Fin 2048) (d : Fin 64) : outv Q K Vv PB Mk (ix4 b h q d) = outAt Q K Vv PB Mk b h q d := rfl

/-- A maximum taken once more against the value the fold started from is the fold. -/
theorem max_negInf_rowMax (s : Fin 2048 → EReal) : max negInf (rowMax s) = rowMax s :=
  max_eq_right ((Finset.le_fold_max _).mpr (Or.inl le_rfl))

end Cert.AttnSpec

end
-- ==== Proof.BucketInt.lean ====
/-
  Two facts about 32-bit integers and one-bit words.

  The relative-position bucket of a distance `n ≥ 0` is `n` itself when `n < 8`, and otherwise a logarithmic
  bucket computed from `n`. One program computes the logarithmic bucket from `max n 1` (so that the logarithm's
  argument is never zero), the other from `n`. Where the two differ (`n < 1`) the distance is small and the
  logarithmic bucket is not selected; where it is selected (`¬ n < 8`, signed) `max n 1 = n`.

  A one-bit word widened to 32 bits is non-zero exactly when it is set.
-/
import Idealize.ShloMosaic.PureOps

namespace Cert.BucketInt

open Idealize.ShloMosaic

/-- Where the signed comparison `n < 8` fails, the signed maximum of `n` and `1` is `n`. -/
theorem maxsi_one_of_not_small (n : BitVec 32) (h : ¬ IntOp.cmpi .slt n 8#32 = 1#1) : IntOp.maxsi n 1#32 = n := by
  have h8 : n.slt 8#32 = false := by
    cases hs : n.slt 8#32
    · rfl
    · exact absurd (by simp [IntOp.cmpi, hs]) h
  have h1 : (1#32).slt n = true := by
    rw [BitVec.slt_eq_decide] at h8 ⊢
    have e8 : (8#32 : BitVec 32).toInt = 8 := by decide
    have e1 : (1#32 : BitVec 32).toInt = 1 := by decide
    rw [e8] at h8
    rw [e1]
    have := of_decide_eq_false h8
    exact decide_eq_true (by omega)
  simp [IntOp.maxsi, h1]

/-- Selecting between `a` (small distance) and a function of `max n 1` is selecting between `a` and the function of `n`. -/
theorem select_small {α : Type} (n : BitVec 32) (a : α) (g : BitVec 32 → α) :
    Scalar.select (IntOp.cmpi .slt n 8#32) a (g (IntOp.maxsi n 1#32))
      = Scalar.select (IntOp.cmpi .slt n 8#32) a (g n) := by
  unfold Scalar.select
  by_cases hc : IntOp.cmpi .slt n 8#32 = 1
  · rw [if_pos hc, if_pos hc]
  · rw [if_neg hc, if_neg hc, maxsi_one_of_not_small n hc]

/-- A one-bit word widened to 32 bits differs from zero exactly when the bit is set. -/
theorem ne_zero_setWidth (b : BitVec 1) : IntOp.cmpi .ne (b.setWidth 32) 0#32 = b := by
  rcases BitVec.eq_zero_or_eq_one b with h | h <;> subst h <;> decide

end Cert.BucketInt
-- ==== Proof.Consts.lean ====
/-
  The two float literals whose values matter: `8` (the reference divides the queries by it) and `1/8` (the kernel
  multiplies them by it). On the extended reals dividing by the real `8` is multiplying by the real `1/8`, at the
  infinities too.
-/
import Idealize.ShloMosaic.PureOps.Ideal

noncomputable section

namespace Cert.Consts

open Idealize.ShloMosaic

/-- The pattern `0x41000000` denotes the real `8`. -/
theorem ofBits_eight : Ideal.ofBits .f32 0x41000000#32 = ((8 : ℝ) : EReal) := by
  simp [Ideal.ofBits, Ideal.ieee, -EReal.coe_mul]; norm_num

/-- The pattern `0x3E000000` denotes the real `1/8`. -/
theorem ofBits_eighth : Ideal.ofBits .f32 0x3E000000#32 = ((1 / 8 : ℝ) : EReal) := by
  simp [Ideal.ofBits, Ideal.ieee, -EReal.coe_mul]; norm_num

/-- Multiplying by the literal `1/8` is dividing by the literal `8`, for every extended real. -/
theorem mul_eighth (x : EReal) :
    x * Ideal.ofBits .f32 0x3E000000#32 = Ideal.div x (Ideal.ofBits .f32 0x41000000#32) := by
  rw [ofBits_eight, ofBits_eighth, Ideal.div_coe (by norm_num : (8 : ℝ) ≠ 0)]

end Cert.Consts

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.LibMatmulRowsByRows.lean ====
/-
  A matrix product that contracts the LAST axis of both operands ("nk,mk→nm": rows against rows), over the
  extended reals, for any extents.

  For A of shape [N, K] and B of shape [M, K] and the dimension numbers contracting [1] × [1], free axes [0] and [0],
  no batch axis, the product's entry (n, m) is  Σₖ A(n, k) · B(m, k).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  Why a proof is needed at all: the contraction is indexed by the one-axis contraction shape, and each operand's
  index at (output entry, contraction index) is computed from the lists by position; here the positions are read
  once, symbolically in N, K, M, and the sum is re-indexed by the column k : Fin K.
-/
import Idealize.ShloMosaic.PureOps.Ideal
import Idealize.ShloMosaic.PureOps.Ideal.Laws
import Idealize.ShloMosaic.Lib.ValueIdx

noncomputable section

namespace Cert.RowsByRows

open Idealize.ShloMosaic Idealize.ShloMosaic.ValueIdx

variable {N K M : Nat}

/-- The dimension numbers of "nk,mk→nm": both operands contracted on axis 1, free on axis 0, no batch axis. -/
structure Is (d : DotDims ⟨2, ![N, K]⟩ ⟨2, ![M, K]⟩ ⟨2, ![N, M]⟩) : Prop where
  lc : d.lhsContracting = [1]
  rc : d.rhsContracting = [1]
  ln : d.lhsNonContracting = [0]
  rn : d.rhsNonContracting = [0]
  lb : d.lhsBatch = []
  rb : d.rhsBatch = []

/-- The side condition a record with these lists carries. -/
abbrev WFt (N K M : Nat) : Prop := DotDims.WF (⟨2, ![N, K]⟩ : Shape) ⟨2, ![M, K]⟩ ⟨2, ![N, M]⟩ [1] [1] [0] [0] [] []

/-- The record with these lists, over a given proof of its side condition. -/
abbrev dims (wf : WFt N K M) : DotDims ⟨2, ![N, K]⟩ ⟨2, ![M, K]⟩ ⟨2, ![N, M]⟩ := ⟨[1], [1], [0], [0], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row at output entry i is i's COLUMN. -/
theorem rhs_row (wf : WFt N K M) (i : (⟨2, ![N, M]⟩ : Shape).Idx) (k : (dims wf).contr.Idx) :
    ((dims wf).rhsIdx i k 0).val = (i 1).val := by
  unfold DotDims.rhsIdx
  rw [dif_neg (show ¬(0 : Fin (⟨2, ![M, K]⟩ : Shape).rank) ∈ (dims wf).rhsBatch from List.not_mem_nil),
    dif_pos (show (0 : Fin (⟨2, ![M, K]⟩ : Shape).rank) ∈ (dims wf).rhsNonContracting from List.mem_singleton.2 rfl)]
  rfl

/-- The right operand's column is the contraction index. -/
theorem rhs_col (wf : WFt N K M) (i : (⟨2, ![N, M]⟩ : Shape).Idx) (k : (dims wf).contr.Idx) :
    ((dims wf).rhsIdx i k 1).val = (k ⟨0, Nat.one_pos⟩).val :=
  (dims wf).rhsIdx_val_of_single rfl i k

/-- The contraction at entry (n, c), re-indexed by the shared column, for the record spelt with the lists. -/
theorem sum_dims (wf : WFt N K M) {φ₁ φ₂ : FTy}
    (A : FVec Ideal ⟨2, ![N, K]⟩ φ₁) (B : FVec Ideal ⟨2, ![M, K]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 c k) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 c k :=
    funext fun a => Fin.ext (by
      match a with
      | ⟨0, _⟩ => exact rhs_row wf _ _
      | ⟨1, _⟩ => exact (rhs_col wf _ _).trans hk)
  rw [el, er]

/-- The same for ANY record that has the lists: it is the record spelt with them. -/
theorem sum_apply (d : DotDims ⟨2, ![N, K]⟩ ⟨2, ![M, K]⟩ ⟨2, ![N, M]⟩) (h : Is d) {φ₁ φ₂ : FTy}
    (A : FVec Ideal ⟨2, ![N, K]⟩ φ₁) (B : FVec Ideal ⟨2, ![M, K]⟩ φ₂) (n : Fin N) (c : Fin M) :
    ∑ k : d.contr.Idx, A (d.lhsIdx (ix2 n c) k) * B (d.rhsIdx (ix2 n c) k) = ∑ k : Fin K, A (ix2 n k) * B (ix2 c k) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(c, k). -/
theorem matmul_zero_apply (d : DotDims ⟨2, ![N, K]⟩ ⟨2, ![M, K]⟩ ⟨2, ![N, M]⟩) (h : Is d) (prec : Option ContractPrecision)
    {φ₁ φ₂ : FTy} (A : FVec Ideal ⟨2, ![N, K]⟩ φ₁) (B : FVec Ideal ⟨2, ![M, K]⟩ φ₂) (n : Fin N) (c : Fin M) :
    matmul d prec A B (constant (F := Ideal) ⟨2, ![N, M]⟩ .f32 0x00000000#32) (ix2 n c)
      = ∑ k : Fin K, A (ix2 n k) * B (ix2 c k) := by
  simp only [matmul]
  rw [Ideal.matmul_constant_zero_apply]
  exact sum_apply d h A B n c

/-- The HOST's general dot product, at entry (n, c): the same sum. -/
theorem dotGeneral_apply (d : DotDims ⟨2, ![N, K]⟩ ⟨2, ![M, K]⟩ ⟨2, ![N, M]⟩) (h : Is d) (prec : Option ContractPrecision)
    {φ₁ φ₂ : FTy} (A : FVec Ideal ⟨2, ![N, K]⟩ φ₁) (B : FVec Ideal ⟨2, ![M, K]⟩ φ₂) (n : Fin N) (c : Fin M) :
    Host.dotGeneral d prec A B (ix2 n c) = ∑ k : Fin K, A (ix2 n k) * B (ix2 c k) := by
  simp only [Host.dotGeneral]
  rw [Ideal.dotGeneral_apply]
  exact sum_apply d h A B n c

end Cert.RowsByRows

end
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.KernelRow.lean ====
/-
  What the kernel's body computes from its loaded blocks, read at an index.

  At one grid point the body holds a block of 256 query rows `P0` ([1,1,256,64]), the 2048 key rows `P1` and value
  rows `P2` ([1,1,2048,64]), the position-bias rows `P3` and the widened mask rows `P4` ([1,1,256,2048]). It forms the
  scores of the 256 × 2048 pairs — the product of the scaled query rows with the key rows, contracted over the 64
  features, plus the bias, replaced by the fill constant where the mask word is non-zero —, takes each row's maximum,
  exponentiates the differences, sums each row and divides: row `p` of the result is the stable softmax of row `p` of
  the scores. The second result is the product of those weights with the value rows, contracted over the 2048 keys.

  Roundings to bf16 on the way into the two products are the identity over the extended reals, a product into the
  zero accumulator is the plain sum, and multiplying by the literal 1/8 is dividing by the literal 8.
-/
import proofs.«180130_j18442589569166_2_alg».proof.Proof.Gen.KernelIdeal.Skeleton
import proofs.«180130_j18442589569166_2_alg».proof.Proof.AttnSpec
import proofs.«180130_j18442589569166_2_alg».proof.Proof.Consts
import proofs.«180130_j18442589569166_2_alg».proof.Proof.LibColumnLayout
import proofs.«180130_j18442589569166_2_alg».proof.Proof.LibMatmulRowsByRows
import proofs.«180130_j18442589569166_2_alg».proof.Proof.LibMatmulRowsByCols
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.AttnSpec

/-! ## Two leading unit axes dropped or added -/

section Casts
variable {α : Type}

/-- A `[1, 1, a, b]` array viewed as `[a, b]` reads, at `(i, j)`, the operand at `(0, 0, i, j)`. -/
theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array viewed as `[1, 1, a, b]` reads, at `(u, v, i, j)`, the operand at `(i, j)`. -/
theorem cast_ab_11ab {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]
    simp only [Nat.zero_mul, Nat.zero_add])

end Casts

/-! ## A row's maximum, a row's sum, a column spread over the row -/

/-- The maximum of each of the 256 rows: a fold of `max` from `-∞` over the row's 2048 entries. -/
theorem rowMax_apply (v : FVec Ideal S256x2048 .f32) (hφ : FKind.Formats .f32)
    (hacc : (0xFF800000#32 : BitVec 32) = FKind.maximumf.neutral .f32 hφ) (q : Fin 256) :
    multiReduction .maximumf [1] S256 v 0xFF800000#32 reduces_S256x2048_S256 hφ hacc (ix1 q)
      = rowMax (fun j => v (ix2 q j)) := by
  refine (Ideal.multiReduction_maximumf_single v 0xFF800000#32 reduces_S256x2048_S256 hφ hacc (ix1 q)).trans ?_
  have hl : ∀ j : Fin 2048, reduces_S256x2048_S256.lift (ix1 q) j = ix2 q j := fun j =>
    funext fun a => Fin.ext (by match a with | ⟨0, _⟩ => rfl | ⟨1, _⟩ => rfl)
  show (Finset.univ : Finset (Fin 2048)).fold max (Ideal.ofBits .f32 0xFF800000#32)
      (fun j => v (reduces_S256x2048_S256.lift (ix1 q) j)) = _
  exact congrArg (fun f => (Finset.univ : Finset (Fin 2048)).fold max (Ideal.ofBits .f32 0xFF800000#32) f)
    (funext fun j => congrArg v (hl j))

/-- The sum of each of the 256 rows. -/
theorem rowSum_apply (v : FVec Ideal S256x2048 .f32) (hφ : FKind.Formats .f32)
    (hacc : (0x00000000#32 : BitVec 32) = FKind.add.neutral .f32 hφ) (q : Fin 256) :
    multiReduction .add [1] S256 v 0x00000000#32 reduces_S256x2048_S256 hφ hacc (ix1 q)
      = ∑ j : Fin 2048, v (ix2 q j) := by
  refine (Ideal.multiReduction_add_single v 0x00000000#32 reduces_S256x2048_S256 hφ hacc (ix1 q)).trans ?_
  have hl : ∀ j : Fin 2048, reduces_S256x2048_S256.lift (ix1 q) j = ix2 q j := fun j =>
    funext fun a => Fin.ext (by match a with | ⟨0, _⟩ => rfl | ⟨1, _⟩ => rfl)
  show ∑ j : Fin 2048, v (reduces_S256x2048_S256.lift (ix1 q) j) = _
  exact Finset.sum_congr rfl fun j _ => congrArg v (hl j)

/-- A vector of 256 row values, made a column and spread over the 2048 columns, reads at `(p, j)` the value of row `p`. -/
theorem column_apply (w : FVec Ideal S256 .f32) (p : Fin 256) (j : Fin 2048) :
    broadcastTo S256x2048 (shapeCast S256x1 w shapeCasts_S256_S256x1) broadcasts_S256x1_S256x2048 (ix2 p j) = w (ix1 p) :=
  (Cert.LibColumnLayout.broadcastTo_a1_ab_apply _ _ p j).trans (Cert.LibColumnLayout.shapeCast_a_a1_apply w _ p (0 : Fin 1))

/-! ## The softmax of the rows of a block -/

/-- Every entry less its row's maximum, exponentiated. -/
def expBlock (v : FVec Ideal S256x2048 .f32) : FVec Ideal S256x2048 .f32 :=
  exp (subf v (broadcastTo S256x2048 (shapeCast S256x1
    (multiReduction .maximumf [1] S256 v 0xFF800000#32 reduces_S256x2048_S256 (.inl rfl) rfl) shapeCasts_S256_S256x1) broadcasts_S256x1_S256x2048))

/-- The exponentials divided by their row's sum: the body's last ten operations, as one function of the scores. -/
def softBlock (v : FVec Ideal S256x2048 .f32) : FVec Ideal S256x2048 .f32 :=
  divf (expBlock v) (broadcastTo S256x2048 (shapeCast S256x1
    (multiReduction .add [1] S256 (expBlock v) 0x00000000#32 reduces_S256x2048_S256 (.inl rfl) rfl) shapeCasts_S256_S256x1) broadcasts_S256x1_S256x2048)

/-- The column of row maxima, spread over the row, reads the row's maximum. -/
theorem maxColumn_apply (v : FVec Ideal S256x2048 .f32) (p : Fin 256) (j : Fin 2048) :
    broadcastTo S256x2048 (shapeCast S256x1
      (multiReduction .maximumf [1] S256 v 0xFF800000#32 reduces_S256x2048_S256 (.inl rfl) rfl) shapeCasts_S256_S256x1) broadcasts_S256x1_S256x2048 (ix2 p j)
      = rowMax (fun j => v (ix2 p j)) :=
  (column_apply _ p j).trans (rowMax_apply v (.inl rfl) rfl p)

/-- The column of row sums, spread over the row, reads the row's sum. -/
theorem sumColumn_apply (v : FVec Ideal S256x2048 .f32) (p : Fin 256) (j : Fin 2048) :
    broadcastTo S256x2048 (shapeCast S256x1
      (multiReduction .add [1] S256 v 0x00000000#32 reduces_S256x2048_S256 (.inl rfl) rfl) shapeCasts_S256_S256x1) broadcasts_S256x1_S256x2048 (ix2 p j)
      = ∑ j : Fin 2048, v (ix2 p j) :=
  (column_apply _ p j).trans (rowSum_apply v (.inl rfl) rfl p)

theorem expBlock_apply (v : FVec Ideal S256x2048 .f32) (p : Fin 256) (j : Fin 2048) :
    expBlock v (ix2 p j) = Ideal.exp (v (ix2 p j) - rowMax (fun j => v (ix2 p j))) :=
  congrArg (fun z => Ideal.exp (v (ix2 p j) - z)) (maxColumn_apply v p j)

/-- Row `p` of the softmax block is the stable softmax of row `p` of the scores. -/
theorem softBlock_apply (v : FVec Ideal S256x2048 .f32) (p : Fin 256) (k : Fin 2048) :
    softBlock v (ix2 p k) = soft (fun j => v (ix2 p j)) k := by
  refine (congrArg (fun z => Ideal.div (expBlock v (ix2 p k)) z) (sumColumn_apply (expBlock v) p k)).trans ?_
  unfold soft
  simp only [expBlock_apply]

/-! ## The scores of a block -/

/-- The masked, biased, scaled scores, as the body's first eighteen operations build them from the loaded blocks. -/
def blkMasked (P0 : Vec Ideal S1x1x256x64 .f32) (P1 : Vec Ideal S1x1x2048x64 .f32) (P3 : Vec Ideal S1x1x256x2048 .f32)
    (P4 : Vec Ideal S1x1x256x2048 .i32) : FVec Ideal S256x2048 .f32 :=
  select (cmpi .ne (shapeCast S256x2048 P4 shapeCasts_S1x1x256x2048_S256x2048) (constantI S256x2048 32 0#32))
    (broadcast S256x2048 (Scalar.ofBits (F := Ideal) .f32 0xCE6E6B28#32))
    (addf (matmul dot_S256x64_S2048x64_S256x2048_1_1_0_0_n_n none
        (truncf .bf16 (mulf (shapeCast S256x64 P0 shapeCasts_S1x1x256x64_S256x64) (broadcast S256x64 (Scalar.ofBits (F := Ideal) .f32 0x3E000000#32))) bitsLt_bf16_f32)
        (truncf .bf16 (shapeCast S2048x64 P1 shapeCasts_S1x1x2048x64_S2048x64) bitsLt_bf16_f32)
        (constant S256x2048 .f32 0x00000000#32))
      (shapeCast S256x2048 P3 shapeCasts_S1x1x256x2048_S256x2048))

/-- The same scores, entry by entry, from the blocks' entries. -/
def blkScore (P0 : Vec Ideal S1x1x256x64 .f32) (P1 : Vec Ideal S1x1x2048x64 .f32) (P3 : Vec Ideal S1x1x256x2048 .f32)
    (P4 : Vec Ideal S1x1x256x2048 .i32) (p : Fin 256) (k : Fin 2048) : EReal :=
  Scalar.select (IntOp.cmpi .ne (P4 (ix4 (0 : Fin 1) (0 : Fin 1) p k)) 0#32) fill
    ((∑ d : Fin 64, Ideal.div (P0 (ix4 (0 : Fin 1) (0 : Fin 1) p d)) eight * P1 (ix4 (0 : Fin 1) (0 : Fin 1) k d))
      + P3 (ix4 (0 : Fin 1) (0 : Fin 1) p k))

theorem blkMasked_apply (P0 : Vec Ideal S1x1x256x64 .f32) (P1 : Vec Ideal S1x1x2048x64 .f32) (P3 : Vec Ideal S1x1x256x2048 .f32)
    (P4 : Vec Ideal S1x1x256x2048 .i32) (p : Fin 256) (k : Fin 2048) :
    blkMasked P0 P1 P3 P4 (ix2 p k) = blkScore P0 P1 P3 P4 p k := by
  have hmm := Cert.RowsByRows.matmul_zero_apply dot_S256x64_S2048x64_S256x2048_1_1_0_0_n_n ⟨rfl, rfl, rfl, rfl, rfl, rfl⟩ none
    (truncf .bf16 (mulf (shapeCast S256x64 P0 shapeCasts_S1x1x256x64_S256x64) (broadcast S256x64 (Scalar.ofBits (F := Ideal) .f32 0x3E000000#32))) bitsLt_bf16_f32)
    (truncf .bf16 (shapeCast S2048x64 P1 shapeCasts_S1x1x2048x64_S2048x64) bitsLt_bf16_f32) p k
  have hsum : (∑ d : Fin 64,
        (truncf .bf16 (mulf (shapeCast S256x64 P0 shapeCasts_S1x1x256x64_S256x64) (broadcast S256x64 (Scalar.ofBits (F := Ideal) .f32 0x3E000000#32))) bitsLt_bf16_f32 : FVec Ideal S256x64 .bf16) (ix2 p d)
          * (truncf .bf16 (shapeCast S2048x64 P1 shapeCasts_S1x1x2048x64_S2048x64) bitsLt_bf16_f32 : FVec Ideal S2048x64 .bf16) (ix2 k d))
      = ∑ d : Fin 64, Ideal.div (P0 (ix4 (0 : Fin 1) (0 : Fin 1) p d)) eight * P1 (ix4 (0 : Fin 1) (0 : Fin 1) k d) :=
    Finset.sum_congr rfl fun d _ => by
      show (shapeCast S256x64 P0 shapeCasts_S1x1x256x64_S256x64 (ix2 p d) * Ideal.ofBits .f32 0x3E000000#32)
          * shapeCast S2048x64 P1 shapeCasts_S1x1x2048x64_S2048x64 (ix2 k d) = _
      rw [cast_11ab_ab, cast_11ab_ab, Cert.Consts.mul_eighth]
      rfl
  show Scalar.select (IntOp.cmpi .ne (shapeCast S256x2048 P4 shapeCasts_S1x1x256x2048_S256x2048 (ix2 p k)) 0#32)
      (Ideal.ofBits .f32 0xCE6E6B28#32)
      (matmul dot_S256x64_S2048x64_S256x2048_1_1_0_0_n_n none
          (truncf .bf16 (mulf (shapeCast S256x64 P0 shapeCasts_S1x1x256x64_S256x64) (broadcast S256x64 (Scalar.ofBits (F := Ideal) .f32 0x3E000000#32))) bitsLt_bf16_f32)
          (truncf .bf16 (shapeCast S2048x64 P1 shapeCasts_S1x1x2048x64_S2048x64) bitsLt_bf16_f32)
          (constant S256x2048 .f32 0x00000000#32) (ix2 p k)
        + shapeCast S256x2048 P3 shapeCasts_S1x1x256x2048_S256x2048 (ix2 p k)) = _
  rw [hmm, hsum, cast_11ab_ab, cast_11ab_ab]
  rfl

/-! ## The two payloads -/

/-- The first payload is the softmax of the rows of the scores. -/
theorem pay4_eq (P0 : Vec Ideal S1x1x256x64 .f32) (P1 : Vec Ideal S1x1x2048x64 .f32) (P3 : Vec Ideal S1x1x256x2048 .f32)
    (P4 : Vec Ideal S1x1x256x2048 .i32) : k0_pay4 P0 P1 P3 P4 = softBlock (blkMasked P0 P1 P3 P4) := rfl

/-- Entry `(p, k)` of the attention block: the stable softmax of the score row `p`, at key `k`. -/
theorem pay4_apply (P0 : Vec Ideal S1x1x256x64 .f32) (P1 : Vec Ideal S1x1x2048x64 .f32) (P3 : Vec Ideal S1x1x256x2048 .f32)
    (P4 : Vec Ideal S1x1x256x2048 .i32) (p : Fin 256) (k : Fin 2048) :
    k0_pay4 P0 P1 P3 P4 (ix2 p k) = soft (blkScore P0 P1 P3 P4 p) k := by
  rw [pay4_eq, softBlock_apply]
  exact congrArg (fun s => soft s k) (funext fun j => blkMasked_apply P0 P1 P3 P4 p j)

/-- The attention block is stored with two leading unit axes: entry `(u, v, p, k)` of what is stored is entry `(p, k)`. -/
theorem pay1_apply (W : FVec Ideal S256x2048 .f32) (u v : Fin 1) (p : Fin 256) (k : Fin 2048) :
    k0_pay1 W (ix4 u v p k) = W (ix2 p k) :=
  cast_ab_11ab W shapeCasts_S256x2048_S1x1x256x2048 u v p k

/-- Entry `(p, d)` of the output block: the attention row `p` against column `d` of the value rows. -/
theorem pay2_apply (P2 : Vec Ideal S1x1x2048x64 .f32) (W : FVec Ideal S256x2048 .f32) (u v : Fin 1) (p : Fin 256) (d : Fin 64) :
    k0_pay2 (k0_pay3 P2) W (ix4 u v p d) = ∑ k : Fin 2048, W (ix2 p k) * P2 (ix4 (0 : Fin 1) (0 : Fin 1) k d) := by
  have hmm := Cert.RowsByCols.matmul_zero_apply dot_S256x2048_S2048x64_S256x64_1_0_0_1_n_n ⟨rfl, rfl, rfl, rfl, rfl, rfl⟩ none
    (truncf .bf16 W bitsLt_bf16_f32) (truncf .bf16 (shapeCast S2048x64 P2 shapeCasts_S1x1x2048x64_S2048x64) bitsLt_bf16_f32) p d
  show shapeCast S1x1x256x64 (matmul dot_S256x2048_S2048x64_S256x64_1_0_0_1_n_n none (truncf .bf16 W bitsLt_bf16_f32)
      (truncf .bf16 (shapeCast S2048x64 P2 shapeCasts_S1x1x2048x64_S2048x64) bitsLt_bf16_f32) (constant S256x64 .f32 0x00000000#32))
      shapeCasts_S256x64_S1x1x256x64 (ix4 u v p d) = _
  rw [cast_ab_11ab, hmm]
  refine Finset.sum_congr rfl fun k _ => ?_
  show W (ix2 p k) * shapeCast S2048x64 P2 shapeCasts_S1x1x2048x64_S2048x64 (ix2 k d) = _
  rw [cast_11ab_ab]

/-! ## A block against the whole arrays

The block of grid point `(b, h, ·)` starting at query row `q0` holds rows `q0 … q0 + 255` of the arrays of batch `b`
and head `h` (the mask's of batch `b`). Given that, the body's two results are rows `q0 … q0 + 255` of the attention
weights and of the output. -/

/-- Query row `p` of the block that starts at row `q0`. -/
def qrow (q0 : ℕ) (hq : q0 + 256 ≤ 2048) (p : Fin 256) : Fin 2048 := ⟨q0 + p.val, by have := p.isLt; omega⟩

theorem block_attn (Q K : SQ.Idx → EReal) (PB : SA.Idx → EReal) (Mi : SM.Idx → BitVec 32)
    (P0 : Vec Ideal S1x1x256x64 .f32) (P1 : Vec Ideal S1x1x2048x64 .f32) (P3 : Vec Ideal S1x1x256x2048 .f32)
    (P4 : Vec Ideal S1x1x256x2048 .i32) (b : Fin 2) (h : Fin 16) (q0 : ℕ) (hq : q0 + 256 ≤ 2048)
    (h0 : ∀ (p : Fin 256) (d : Fin 64), P0 (ix4 (0 : Fin 1) (0 : Fin 1) p d) = Q (ix4 b h (qrow q0 hq p) d))
    (h1 : ∀ (k : Fin 2048) (d : Fin 64), P1 (ix4 (0 : Fin 1) (0 : Fin 1) k d) = K (ix4 b h k d))
    (h3 : ∀ (p : Fin 256) (k : Fin 2048), P3 (ix4 (0 : Fin 1) (0 : Fin 1) p k) = PB (ix4 b h (qrow q0 hq p) k))
    (h4 : ∀ (p : Fin 256) (k : Fin 2048), P4 (ix4 (0 : Fin 1) (0 : Fin 1) p k) = Mi (ix4 b (0 : Fin 1) (qrow q0 hq p) k))
    (p : Fin 256) (k : Fin 2048) :
    k0_pay4 P0 P1 P3 P4 (ix2 p k) = attnAt Q K PB (fun i => IntOp.cmpi .ne (Mi i) 0#32) b h (qrow q0 hq p) k := by
  rw [pay4_apply]
  unfold attnAt
  refine congrArg (fun s => soft s k) (funext fun j => ?_)
  unfold blkScore score
  rw [h4, h3]
  simp only [h0, h1]

theorem block_out (Q K Vv : SQ.Idx → EReal) (PB : SA.Idx → EReal) (Mi : SM.Idx → BitVec 32)
    (P0 : Vec Ideal S1x1x256x64 .f32) (P1 P2 : Vec Ideal S1x1x2048x64 .f32) (P3 : Vec Ideal S1x1x256x2048 .f32)
    (P4 : Vec Ideal S1x1x256x2048 .i32) (b : Fin 2) (h : Fin 16) (q0 : ℕ) (hq : q0 + 256 ≤ 2048)
    (h0 : ∀ (p : Fin 256) (d : Fin 64), P0 (ix4 (0 : Fin 1) (0 : Fin 1) p d) = Q (ix4 b h (qrow q0 hq p) d))
    (h1 : ∀ (k : Fin 2048) (d : Fin 64), P1 (ix4 (0 : Fin 1) (0 : Fin 1) k d) = K (ix4 b h k d))
    (h2 : ∀ (k : Fin 2048) (d : Fin 64), P2 (ix4 (0 : Fin 1) (0 : Fin 1) k d) = Vv (ix4 b h k d))
    (h3 : ∀ (p : Fin 256) (k : Fin 2048), P3 (ix4 (0 : Fin 1) (0 : Fin 1) p k) = PB (ix4 b h (qrow q0 hq p) k))
    (h4 : ∀ (p : Fin 256) (k : Fin 2048), P4 (ix4 (0 : Fin 1) (0 : Fin 1) p k) = Mi (ix4 b (0 : Fin 1) (qrow q0 hq p) k))
    (u v : Fin 1) (p : Fin 256) (d : Fin 64) :
    k0_pay2 (k0_pay3 P2) (k0_pay4 P0 P1 P3 P4) (ix4 u v p d)
      = outAt Q K Vv PB (fun i => IntOp.cmpi .ne (Mi i) 0#32) b h (qrow q0 hq p) d := by
  rw [pay2_apply]
  unfold outAt
  refine Finset.sum_congr rfl fun k _ => ?_
  rw [block_attn Q K PB Mi P0 P1 P3 P4 b h q0 hq h0 h1 h3 h4 p k, h2]

end Cert.KernelIdeal.Row

end
-- ==== Proof.KernelGrid.lean ====
/-
  The grid's index maps, and the input blocks as rows of the arrays.

  The grid has 2 × 16 × 8 points `(b, h, i)`. At a point the query, bias and both result windows hold rows
  `256·i … 256·i + 255` of batch `b` and head `h`; the key and value windows hold all 2048 rows of `(b, h)`; the mask
  window holds rows `256·i …` of batch `b` (the mask has one head). These relations between the printed index maps
  are decided once over the 256 points. With them each input block, read at a block index, is the array the region
  finds, read at the corresponding array index.
-/
import proofs.«180130_j18442589569166_2_alg».proof.Proof.Gen.KernelIdeal.Value
import proofs.«180130_j18442589569166_2_alg».proof.Proof.KernelRow
import proofs.«180130_j18442589569166_2_alg».proof.Proof.AttnSpec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.AttnSpec Cert.KernelIdeal.Row
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl

/-! ## The index maps over the grid -/

/-- The attention window's block index at a point is `(b, h, i, 0)` with `b < 2`, `h < 16`, `i < 8`. -/
theorem idx6 : ∀ t : Fin cfg0.N, win0_6.index t (0 : Fin 4) < 2 ∧ win0_6.index t (1 : Fin 4) < 16
    ∧ win0_6.index t (2 : Fin 4) < 8 ∧ win0_6.index t (3 : Fin 4) = 0 :=
  (by decide +kernel : ∀ t : Fin grid0.N, _)

/-- The output window moves with the attention window. -/
theorem idx5 : ∀ t : Fin cfg0.N, win0_5.index t (0 : Fin 4) = win0_6.index t (0 : Fin 4)
    ∧ win0_5.index t (1 : Fin 4) = win0_6.index t (1 : Fin 4)
    ∧ win0_5.index t (2 : Fin 4) = win0_6.index t (2 : Fin 4) ∧ win0_5.index t (3 : Fin 4) = 0 :=
  (by decide +kernel : ∀ t : Fin grid0.N, _)

/-- The query window moves with the attention window. -/
theorem idx0 : ∀ t : Fin cfg0.N, win0_0.index t (0 : Fin 4) = win0_6.index t (0 : Fin 4)
    ∧ win0_0.index t (1 : Fin 4) = win0_6.index t (1 : Fin 4)
    ∧ win0_0.index t (2 : Fin 4) = win0_6.index t (2 : Fin 4) ∧ win0_0.index t (3 : Fin 4) = 0 :=
  (by decide +kernel : ∀ t : Fin grid0.N, _)

/-- The key window holds all rows of the point's batch and head. -/
theorem idx1 : ∀ t : Fin cfg0.N, win0_1.index t (0 : Fin 4) = win0_6.index t (0 : Fin 4)
    ∧ win0_1.index t (1 : Fin 4) = win0_6.index t (1 : Fin 4)
    ∧ win0_1.index t (2 : Fin 4) = 0 ∧ win0_1.index t (3 : Fin 4) = 0 :=
  (by decide +kernel : ∀ t : Fin grid0.N, _)

/-- So does the value window. -/
theorem idx2 : ∀ t : Fin cfg0.N, win0_2.index t (0 : Fin 4) = win0_6.index t (0 : Fin 4)
    ∧ win0_2.index t (1 : Fin 4) = win0_6.index t (1 : Fin 4)
    ∧ win0_2.index t (2 : Fin 4) = 0 ∧ win0_2.index t (3 : Fin 4) = 0 :=
  (by decide +kernel : ∀ t : Fin grid0.N, _)

/-- The bias window moves with the attention window. -/
theorem idx3 : ∀ t : Fin cfg0.N, win0_3.index t (0 : Fin 4) = win0_6.index t (0 : Fin 4)
    ∧ win0_3.index t (1 : Fin 4) = win0_6.index t (1 : Fin 4)
    ∧ win0_3.index t (2 : Fin 4) = win0_6.index t (2 : Fin 4) ∧ win0_3.index t (3 : Fin 4) = 0 :=
  (by decide +kernel : ∀ t : Fin grid0.N, _)

/-- The mask window follows the batch and the query rows; its head index is always 0. -/
theorem idx4 : ∀ t : Fin cfg0.N, win0_4.index t (0 : Fin 4) = win0_6.index t (0 : Fin 4)
    ∧ win0_4.index t (1 : Fin 4) = 0
    ∧ win0_4.index t (2 : Fin 4) = win0_6.index t (2 : Fin 4) ∧ win0_4.index t (3 : Fin 4) = 0 :=
  (by decide +kernel : ∀ t : Fin grid0.N, _)

/-- Every `(b, h, i)` is some point's block index. -/
theorem onto6 : ∀ (b : Fin 2) (h : Fin 16) (i : Fin 8), ∃ t : Fin cfg0.N, win0_6.index t = ![b.val, h.val, i.val, 0] :=
  (by decide +kernel : ∀ (b : Fin 2) (h : Fin 16) (i : Fin 8), ∃ t : Fin grid0.N, win0_6.index t = ![b.val, h.val, i.val, 0])

/-- The batch of a point. -/
def bAt (t : Fin cfg0.N) : Fin 2 := ⟨win0_6.index t (0 : Fin 4), (idx6 t).1⟩
/-- The head of a point. -/
def hAt (t : Fin cfg0.N) : Fin 16 := ⟨win0_6.index t (1 : Fin 4), (idx6 t).2.1⟩
/-- The first query row of a point's block. -/
def q0At (t : Fin cfg0.N) : ℕ := win0_6.index t (2 : Fin 4) * 256

theorem q0At_le (t : Fin cfg0.N) : q0At t + 256 ≤ 2048 := by
  have := (idx6 t).2.2.1
  unfold q0At
  omega

/-! ## The input blocks are rows of the arrays -/

/-- The mask as the body tests it: a widened mask word is non-zero. -/
def maskBit (c : Dev nD) : SM.Idx → BitVec 1 := fun i => IntOp.cmpi .ne (V m c main_v39 i) 0#32

theorem read0 (c : Dev nD) (t : Fin cfg0.N) (p : Fin 256) (d : Fin 64) :
    (iblk m c 0 t : Vec Ideal S1x1x256x64 .f32) (ix4 (0 : Fin 1) (0 : Fin 1) p d)
      = (V m c main_arg0 : SQ.Idx → EReal) (ix4 (bAt t) (hAt t) (qrow (q0At t) (q0At_le t) p) d) := by
  obtain ⟨e0, e1, e2, e3⟩ := idx0 t
  have he : ((cfg0.win 0).blk t).view.emb (ix4 (0 : Fin 1) (0 : Fin 1) p d)
      = ix4 (bAt t) (hAt t) (qrow (q0At t) (q0At_le t) p) d := by
    funext a; apply Fin.ext
    match a with
    | ⟨0, _⟩ => show win0_0.index t (0 : Fin 4) * 1 + 1 * 0 = win0_6.index t (0 : Fin 4); omega
    | ⟨1, _⟩ => show win0_0.index t (1 : Fin 4) * 1 + 1 * 0 = win0_6.index t (1 : Fin 4); omega
    | ⟨2, _⟩ => show win0_0.index t (2 : Fin 4) * 256 + 1 * p.val = win0_6.index t (2 : Fin 4) * 256 + p.val; omega
    | ⟨3, _⟩ => show win0_0.index t (3 : Fin 4) * 64 + 1 * d.val = d.val; omega
  show V m c main_arg0 (((cfg0.win 0).blk t).view.emb (ix4 (0 : Fin 1) (0 : Fin 1) p d)) = _
  rw [he]

theorem read1 (c : Dev nD) (t : Fin cfg0.N) (k : Fin 2048) (d : Fin 64) :
    (iblk m c 1 t : Vec Ideal S1x1x2048x64 .f32) (ix4 (0 : Fin 1) (0 : Fin 1) k d)
      = (V m c main_arg1 : SQ.Idx → EReal) (ix4 (bAt t) (hAt t) k d) := by
  obtain ⟨e0, e1, e2, e3⟩ := idx1 t
  have he : ((cfg0.win 1).blk t).view.emb (ix4 (0 : Fin 1) (0 : Fin 1) k d) = ix4 (bAt t) (hAt t) k d := by
    funext a; apply Fin.ext
    match a with
    | ⟨0, _⟩ => show win0_1.index t (0 : Fin 4) * 1 + 1 * 0 = win0_6.index t (0 : Fin 4); omega
    | ⟨1, _⟩ => show win0_1.index t (1 : Fin 4) * 1 + 1 * 0 = win0_6.index t (1 : Fin 4); omega
    | ⟨2, _⟩ => show win0_1.index t (2 : Fin 4) * 2048 + 1 * k.val = k.val; omega
    | ⟨3, _⟩ => show win0_1.index t (3 : Fin 4) * 64 + 1 * d.val = d.val; omega
  show V m c main_arg1 (((cfg0.win 1).blk t).view.emb (ix4 (0 : Fin 1) (0 : Fin 1) k d)) = _
  rw [he]

theorem read2 (c : Dev nD) (t : Fin cfg0.N) (k : Fin 2048) (d : Fin 64) :
    (iblk m c 2 t : Vec Ideal S1x1x2048x64 .f32) (ix4 (0 : Fin 1) (0 : Fin 1) k d)
      = (V m c main_arg2 : SQ.Idx → EReal) (ix4 (bAt t) (hAt t) k d) := by
  obtain ⟨e0, e1, e2, e3⟩ := idx2 t
  have he : ((cfg0.win 2).blk t).view.emb (ix4 (0 : Fin 1) (0 : Fin 1) k d) = ix4 (bAt t) (hAt t) k d := by
    funext a; apply Fin.ext
    match a with
    | ⟨0, _⟩ => show win0_2.index t (0 : Fin 4) * 1 + 1 * 0 = win0_6.index t (0 : Fin 4); omega
    | ⟨1, _⟩ => show win0_2.index t (1 : Fin 4) * 1 + 1 * 0 = win0_6.index t (1 : Fin 4); omega
    | ⟨2, _⟩ => show win0_2.index t (2 : Fin 4) * 2048 + 1 * k.val = k.val; omega
    | ⟨3, _⟩ => show win0_2.index t (3 : Fin 4) * 64 + 1 * d.val = d.val; omega
  show V m c main_arg2 (((cfg0.win 2).blk t).view.emb (ix4 (0 : Fin 1) (0 : Fin 1) k d)) = _
  rw [he]

theorem read3 (c : Dev nD) (t : Fin cfg0.N) (p : Fin 256) (k : Fin 2048) :
    (iblk m c 3 t : Vec Ideal S1x1x256x2048 .f32) (ix4 (0 : Fin 1) (0 : Fin 1) p k)
      = (V m c main_v38 : SA.Idx → EReal) (ix4 (bAt t) (hAt t) (qrow (q0At t) (q0At_le t) p) k) := by
  obtain ⟨e0, e1, e2, e3⟩ := idx3 t
  have he : ((cfg0.win 3).blk t).view.emb (ix4 (0 : Fin 1) (0 : Fin 1) p k)
      = ix4 (bAt t) (hAt t) (qrow (q0At t) (q0At_le t) p) k := by
    funext a; apply Fin.ext
    match a with
    | ⟨0, _⟩ => show win0_3.index t (0 : Fin 4) * 1 + 1 * 0 = win0_6.index t (0 : Fin 4); omega
    | ⟨1, _⟩ => show win0_3.index t (1 : Fin 4) * 1 + 1 * 0 = win0_6.index t (1 : Fin 4); omega
    | ⟨2, _⟩ => show win0_3.index t (2 : Fin 4) * 256 + 1 * p.val = win0_6.index t (2 : Fin 4) * 256 + p.val; omega
    | ⟨3, _⟩ => show win0_3.index t (3 : Fin 4) * 2048 + 1 * k.val = k.val; omega
  show V m c main_v38 (((cfg0.win 3).blk t).view.emb (ix4 (0 : Fin 1) (0 : Fin 1) p k)) = _
  rw [he]

theorem read4 (c : Dev nD) (t : Fin cfg0.N) (p : Fin 256) (k : Fin 2048) :
    (iblk m c 4 t : Vec Ideal S1x1x256x2048 .i32) (ix4 (0 : Fin 1) (0 : Fin 1) p k)
      = (V m c main_v39 : SM.Idx → BitVec 32) (ix4 (bAt t) (0 : Fin 1) (qrow (q0At t) (q0At_le t) p) k) := by
  obtain ⟨e0, e1, e2, e3⟩ := idx4 t
  have he : ((cfg0.win 4).blk t).view.emb (ix4 (0 : Fin 1) (0 : Fin 1) p k)
      = ix4 (bAt t) (0 : Fin 1) (qrow (q0At t) (q0At_le t) p) k := by
    funext a; apply Fin.ext
    match a with
    | ⟨0, _⟩ => show win0_4.index t (0 : Fin 4) * 1 + 1 * 0 = win0_6.index t (0 : Fin 4); omega
    | ⟨1, _⟩ => show win0_4.index t (1 : Fin 4) * 1 + 1 * 0 = 0; omega
    | ⟨2, _⟩ => show win0_4.index t (2 : Fin 4) * 256 + 1 * p.val = win0_6.index t (2 : Fin 4) * 256 + p.val; omega
    | ⟨3, _⟩ => show win0_4.index t (3 : Fin 4) * 2048 + 1 * k.val = k.val; omega
  show V m c main_v39 (((cfg0.win 4).blk t).view.emb (ix4 (0 : Fin 1) (0 : Fin 1) p k)) = _
  rw [he]

end Cert.KernelIdeal.Blocks

end
-- ==== Proof.KernelPoint.lean ====
/-
  A block against the whole arrays, with the mask given as the bit the body tests.

  The block of batch `b` and head `h` starting at query row `q0` holds rows `q0 … q0 + 255` of the query and bias
  arrays, all rows of the key and value arrays of `(b, h)`, and mask words of which the body only asks whether they
  are non-zero. Given what each block entry is, the body's two results are rows `q0 … q0 + 255` of the attention
  weights and of the output.
-/
import proofs.«180130_j18442589569166_2_alg».proof.Proof.KernelRow

noncomputable section

namespace Cert.KernelIdeal.Row

open Cert.KernelIdeal Cert.KernelIdeal.Gen Idealize.ShloMosaic Idealize.ShloMosaic.ValueIdx Cert.AttnSpec

theorem point_attn (Q K : SQ.Idx → EReal) (PB : SA.Idx → EReal) (Mk : SM.Idx → BitVec 1)
    (P0 : Vec Ideal S1x1x256x64 .f32) (P1 : Vec Ideal S1x1x2048x64 .f32) (P3 : Vec Ideal S1x1x256x2048 .f32)
    (P4 : Vec Ideal S1x1x256x2048 .i32) (b : Fin 2) (h : Fin 16) (q0 : ℕ) (hq : q0 + 256 ≤ 2048)
    (h0 : ∀ (p : Fin 256) (d : Fin 64), P0 (ix4 (0 : Fin 1) (0 : Fin 1) p d) = Q (ix4 b h (qrow q0 hq p) d))
    (h1 : ∀ (k : Fin 2048) (d : Fin 64), P1 (ix4 (0 : Fin 1) (0 : Fin 1) k d) = K (ix4 b h k d))
    (h3 : ∀ (p : Fin 256) (k : Fin 2048), P3 (ix4 (0 : Fin 1) (0 : Fin 1) p k) = PB (ix4 b h (qrow q0 hq p) k))
    (h4 : ∀ (p : Fin 256) (k : Fin 2048),
      IntOp.cmpi .ne (P4 (ix4 (0 : Fin 1) (0 : Fin 1) p k)) 0#32 = Mk (ix4 b (0 : Fin 1) (qrow q0 hq p) k))
    (p : Fin 256) (k : Fin 2048) :
    k0_pay4 P0 P1 P3 P4 (ix2 p k) = attnAt Q K PB Mk b h (qrow q0 hq p) k := by
  rw [pay4_apply]
  unfold attnAt
  refine congrArg (fun s => soft s k) (funext fun j => ?_)
  unfold blkScore score
  rw [h4, h3]
  simp only [h0, h1]

theorem point_out (Q K Vv : SQ.Idx → EReal) (PB : SA.Idx → EReal) (Mk : SM.Idx → BitVec 1)
    (P0 : Vec Ideal S1x1x256x64 .f32) (P1 P2 : Vec Ideal S1x1x2048x64 .f32) (P3 : Vec Ideal S1x1x256x2048 .f32)
    (P4 : Vec Ideal S1x1x256x2048 .i32) (b : Fin 2) (h : Fin 16) (q0 : ℕ) (hq : q0 + 256 ≤ 2048)
    (h0 : ∀ (p : Fin 256) (d : Fin 64), P0 (ix4 (0 : Fin 1) (0 : Fin 1) p d) = Q (ix4 b h (qrow q0 hq p) d))
    (h1 : ∀ (k : Fin 2048) (d : Fin 64), P1 (ix4 (0 : Fin 1) (0 : Fin 1) k d) = K (ix4 b h k d))
    (h2 : ∀ (k : Fin 2048) (d : Fin 64), P2 (ix4 (0 : Fin 1) (0 : Fin 1) k d) = Vv (ix4 b h k d))
    (h3 : ∀ (p : Fin 256) (k : Fin 2048), P3 (ix4 (0 : Fin 1) (0 : Fin 1) p k) = PB (ix4 b h (qrow q0 hq p) k))
    (h4 : ∀ (p : Fin 256) (k : Fin 2048),
      IntOp.cmpi .ne (P4 (ix4 (0 : Fin 1) (0 : Fin 1) p k)) 0#32 = Mk (ix4 b (0 : Fin 1) (qrow q0 hq p) k))
    (u v : Fin 1) (p : Fin 256) (d : Fin 64) :
    k0_pay2 (k0_pay3 P2) (k0_pay4 P0 P1 P3 P4) (ix4 u v p d) = outAt Q K Vv PB Mk b h (qrow q0 hq p) d := by
  rw [pay2_apply]
  unfold outAt
  refine Finset.sum_congr rfl fun k _ => ?_
  rw [point_attn Q K PB Mk P0 P1 P3 P4 b h q0 hq h0 h1 h3 h4 p k, h2]

end Cert.KernelIdeal.Row

end
-- ==== Proof.KernelBlocks.lean ====
/-
  From the blocks the grid points write back to the two whole result arrays.

  At the point of batch `b`, head `h` and row block `i` the body's two results, read at a block index, are the
  attention weights (`Cert.AttnSpec.attn`) and the output (`Cert.AttnSpec.outv`) of the arrays as the region finds
  them, read at the array index under it: the input blocks are rows of those arrays (Proof/KernelGrid.lean) and the
  body computes the softmax of their score rows (Proof/KernelRow.lean). Every array index lies in the block of the
  point `(i₀, i₁, i₂ / 256)`, so after the run the two result arrays are those two functions.
-/
import proofs.«180130_j18442589569166_2_alg».proof.Proof.KernelGrid
import proofs.«180130_j18442589569166_2_alg».proof.Proof.KernelPoint

noncomputable section

namespace Cert.KernelIdeal.Blocks

open Cert.KernelIdeal Cert.KernelIdeal.Gen Idealize.ShloMosaic Idealize.ShloMosaic.TcCoe Idealize.SL.Sem
open Idealize.ShloMosaic.ValueIdx Cert.AttnSpec Cert.KernelIdeal.Row
open Idealize.ShloMosaic.Pipeline (Dat)

variable (m : (ℓ : Loc nD τ sig) → Buf (Elt Ideal) ℓ) (ρ : Dev nD → PrngReg)

/-! ## What a point writes back -/

/-- The body's test on a mask word of the block is the mask bit of the array entry under it. -/
theorem read4bit (c : Dev nD) (t : Fin cfg0.N) (p : Fin 256) (k : Fin 2048) :
    IntOp.cmpi .ne ((iblk m c 4 t : Vec Ideal S1x1x256x2048 .i32) (ix4 (0 : Fin 1) (0 : Fin 1) p k)) 0#32
      = maskBit m c (ix4 (bAt t) (0 : Fin 1) (qrow (q0At t) (q0At_le t) p) k) :=
  congrArg (fun w : BitVec 32 => IntOp.cmpi .ne w 0#32) (read4 m c t p k)

/-- Reading an array through the attention window's block at a point: the array at the index under each block index. -/
theorem read6 (t : Fin cfg0.N) (G : S2x16x2048x2048.Idx → EReal) :
    ((cfg0.win 6).blk t).view.read (Elt Ideal) G = fun y => G (((cfg0.win 6).blk t).view.emb y) := rfl

/-- Point `t` writes back its block of the attention weights. -/
theorem flushed6_eq (c : Dev nD) (t : Fin cfg0.N) :
    (dats m 0 c).flushed 6 t = ((cfg0.win 6).blk t).view.read (Elt Ideal)
      (attn (V m c main_arg0) (V m c main_arg1) (V m c main_v38) (maskBit m c)) := by
  rw [Value.flushed6, read6]
  unfold out0_6
  rw [View.canon_unit_zero hz4]
  funext y
  beta_reduce
  have hy0 : (y 0).val < 1 := (y 0).isLt
  have hy1 : (y 1).val < 1 := (y 1).isLt
  have hy2 : (y 2).val < 256 := (y 2).isLt
  have hy3 : (y 3).val < 2048 := (y 3).isLt
  obtain ⟨e0, e1, e2, e3⟩ := idx6 t
  have he : ((cfg0.win 6).blk t).view.emb y
      = ix4 (bAt t) (hAt t) (qrow (q0At t) (q0At_le t) ⟨(y 2).val, hy2⟩) (⟨(y 3).val, hy3⟩ : Fin 2048) := by
    funext a; apply Fin.ext
    match a with
    | ⟨0, _⟩ => show win0_6.index t (0 : Fin 4) * 1 + 1 * (y 0).val = win0_6.index t (0 : Fin 4); omega
    | ⟨1, _⟩ => show win0_6.index t (1 : Fin 4) * 1 + 1 * (y 1).val = win0_6.index t (1 : Fin 4); omega
    | ⟨2, _⟩ => show win0_6.index t (2 : Fin 4) * 256 + 1 * (y 2).val = win0_6.index t (2 : Fin 4) * 256 + (y 2).val; omega
    | ⟨3, _⟩ => show win0_6.index t (3 : Fin 4) * 2048 + 1 * (y 3).val = (y 3).val; omega
  have hx : (cfg0.win 6).xinj (grid0.coords t) y
      = ix4 (⟨(y 0).val, hy0⟩ : Fin 1) (⟨(y 1).val, hy1⟩ : Fin 1) (⟨(y 2).val, hy2⟩ : Fin 256) (⟨(y 3).val, hy3⟩ : Fin 2048) :=
    funext fun a => by match a with | ⟨0, _⟩ => rfl | ⟨1, _⟩ => rfl | ⟨2, _⟩ => rfl | ⟨3, _⟩ => rfl
  show k0_pay1 (k0_pay4 (View.ld (iblk m c 0 t) r0_0) (View.ld (iblk m c 1 t) r0_1)
      (View.ld (iblk m c 3 t) r0_2) (View.ld (iblk m c 4 t) r0_2)) ((cfg0.win 6).xinj (grid0.coords t) y) = _
  rw [hx, he, attn_ix4, View.ld_unit_zero (S := S1x1x256x64) hz4, View.ld_unit_zero (S := S1x1x2048x64) hz4,
    View.ld_unit_zero (S := S1x1x256x2048) hz4, View.ld_unit_zero (S := S1x1x256x2048) hz4]
  refine (pay1_apply _ _ _ _ _).trans ?_
  exact point_attn (V m c main_arg0) (V m c main_arg1) (V m c main_v38) (maskBit m c)
    (iblk m c 0 t) (iblk m c 1 t) (iblk m c 3 t) (iblk m c 4 t) (bAt t) (hAt t) (q0At t) (q0At_le t)
    (read0 m c t) (read1 m c t) (read3 m c t) (read4bit m c t) ⟨(y 2).val, hy2⟩ ⟨(y 3).val, hy3⟩

/-- Point `t` writes back its block of the output. -/
theorem flushed5_eq (c : Dev nD) (t : Fin cfg0.N) :
    (dats m 0 c).flushed 5 t = ((cfg0.win 5).blk t).view.read (Elt Ideal)
      (outv (V m c main_arg0) (V m c main_arg1) (V m c main_arg2) (V m c main_v38) (maskBit m c)) := by
  rw [Value.flushed5]
  unfold out0_5
  rw [View.canon_unit_zero hz4]
  funext y
  have hy0 : (y 0).val < 1 := (y 0).isLt
  have hy1 : (y 1).val < 1 := (y 1).isLt
  have hy2 : (y 2).val < 256 := (y 2).isLt
  have hy3 : (y 3).val < 64 := (y 3).isLt
  obtain ⟨e0, e1, e2, e3⟩ := idx6 t
  obtain ⟨f0, f1, f2, f3⟩ := idx5 t
  have he : ((cfg0.win 5).blk t).view.emb y
      = ix4 (bAt t) (hAt t) (qrow (q0At t) (q0At_le t) ⟨(y 2).val, hy2⟩) (⟨(y 3).val, hy3⟩ : Fin 64) := by
    funext a; apply Fin.ext
    match a with
    | ⟨0, _⟩ => show win0_5.index t (0 : Fin 4) * 1 + 1 * (y 0).val = win0_6.index t (0 : Fin 4); omega
    | ⟨1, _⟩ => show win0_5.index t (1 : Fin 4) * 1 + 1 * (y 1).val = win0_6.index t (1 : Fin 4); omega
    | ⟨2, _⟩ => show win0_5.index t (2 : Fin 4) * 256 + 1 * (y 2).val = win0_6.index t (2 : Fin 4) * 256 + (y 2).val; omega
    | ⟨3, _⟩ => show win0_5.index t (3 : Fin 4) * 64 + 1 * (y 3).val = (y 3).val; omega
  have hy : y = ix4 (⟨(y 0).val, hy0⟩ : Fin 1) (⟨(y 1).val, hy1⟩ : Fin 1) (⟨(y 2).val, hy2⟩ : Fin 256) (⟨(y 3).val, hy3⟩ : Fin 64) :=
    funext fun a => by match a with | ⟨0, _⟩ => rfl | ⟨1, _⟩ => rfl | ⟨2, _⟩ => rfl | ⟨3, _⟩ => rfl
  show k0_pay2 (k0_pay3 (View.ld (iblk m c 2 t) r0_1)) (k0_pay4 (View.ld (iblk m c 0 t) r0_0) (View.ld (iblk m c 1 t) r0_1)
      (View.ld (iblk m c 3 t) r0_2) (View.ld (iblk m c 4 t) r0_2)) y
    = outv (V m c main_arg0) (V m c main_arg1) (V m c main_arg2) (V m c main_v38) (maskBit m c) (((cfg0.win 5).blk t).view.emb y)
  rw [he, outv_ix4, View.ld_unit_zero (S := S1x1x256x64) hz4, View.ld_unit_zero (S := S1x1x2048x64) hz4,
    View.ld_unit_zero (S := S1x1x2048x64) hz4, View.ld_unit_zero (S := S1x1x256x2048) hz4,
    View.ld_unit_zero (S := S1x1x256x2048) hz4]
  refine (congrArg (k0_pay2 (k0_pay3 (iblk m c 2 t)) (k0_pay4 (iblk m c 0 t) (iblk m c 1 t) (iblk m c 3 t) (iblk m c 4 t))) hy).trans ?_
  exact point_out (V m c main_arg0) (V m c main_arg1) (V m c main_arg2) (V m c main_v38) (maskBit m c)
    (iblk m c 0 t) (iblk m c 1 t) (iblk m c 2 t) (iblk m c 3 t) (iblk m c 4 t) (bAt t) (hAt t) (q0At t) (q0At_le t)
    (read0 m c t) (read1 m c t) (read2 m c t) (read3 m c t) (read4bit m c t) _ _ ⟨(y 2).val, hy2⟩ ⟨(y 3).val, hy3⟩

/-! ## The blocks cover the arrays -/

theorem mem_blk6 (t : Fin cfg0.N) (i : S2x16x2048x2048.Idx) :
    i ∈ ((cfg0.win 6).blk t).view.set ↔ ∀ a : Fin 4, win0_6.index t a * S1x1x256x2048.size a ≤ (i a).val
      ∧ (i a).val < win0_6.index t a * S1x1x256x2048.size a + S1x1x256x2048.size a := by
  show i ∈ ((View.whole main_v40_1).slice (win0_6.rect t)).set ↔ _
  rw [View.set_slice_whole, Rect.mem_set_unit]
  exact Iff.rfl

theorem mem_blk5 (t : Fin cfg0.N) (i : S2x16x2048x64.Idx) :
    i ∈ ((cfg0.win 5).blk t).view.set ↔ ∀ a : Fin 4, win0_5.index t a * S1x1x256x64.size a ≤ (i a).val
      ∧ (i a).val < win0_5.index t a * S1x1x256x64.size a + S1x1x256x64.size a := by
  show i ∈ ((View.whole main_v40_0).slice (win0_5.rect t)).set ↔ _
  rw [View.set_slice_whole, Rect.mem_set_unit]
  exact Iff.rfl

/-- Every index of the attention array is in the block of the point `(i₀, i₁, i₂ / 256)`. -/
theorem cover6 (i : S2x16x2048x2048.Idx) :
    ∃ t : Fin cfg0.N, (cfg0.win 6).flush t = true ∧ i ∈ ((cfg0.win 6).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := onto6 ⟨(i 0).val, hi0⟩ ⟨(i 1).val, hi1⟩ ⟨(i 2).val / 256, by omega⟩
  have q0 : win0_6.index t (0 : Fin 4) = (i 0).val := congrFun ht 0
  have q1 : win0_6.index t (1 : Fin 4) = (i 1).val := congrFun ht 1
  have q2 : win0_6.index t (2 : Fin 4) = (i 2).val / 256 := congrFun ht 2
  have q3 : win0_6.index t (3 : Fin 4) = 0 := congrFun ht 3
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 256 ≤ (i 2).val ∧ (i 2).val < win0_6.index t (2 : Fin 4) * 256 + 256; omega
  | ⟨3, _⟩ => show win0_6.index t (3 : Fin 4) * 2048 ≤ (i 3).val ∧ (i 3).val < win0_6.index t (3 : Fin 4) * 2048 + 2048; omega

/-- Every index of the output array is in the block of the point `(i₀, i₁, i₂ / 256)`. -/
theorem cover5 (i : S2x16x2048x64.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := onto6 ⟨(i 0).val, hi0⟩ ⟨(i 1).val, hi1⟩ ⟨(i 2).val / 256, by omega⟩
  have q0 : win0_6.index t (0 : Fin 4) = (i 0).val := congrFun ht 0
  have q1 : win0_6.index t (1 : Fin 4) = (i 1).val := congrFun ht 1
  have q2 : win0_6.index t (2 : Fin 4) = (i 2).val / 256 := congrFun ht 2
  obtain ⟨f0, f1, f2, f3⟩ := idx5 t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 256 ≤ (i 2).val ∧ (i 2).val < win0_5.index t (2 : Fin 4) * 256 + 256; omega
  | ⟨3, _⟩ => show win0_5.index t (3 : Fin 4) * 64 ≤ (i 3).val ∧ (i 3).val < win0_5.index t (3 : Fin 4) * 64 + 64; omega

/-! ## The two result arrays after the run -/

theorem final6 (c : Dev nD) : (dats m 0 c).arrAt 6 cfg0.N
    = attn (V m c main_arg0) (V m c main_arg1) (V m c main_v38) (maskBit m c) :=
  (dats m 0 c).arrAt_eq_of_cover 6 _ (fun t _ => flushed6_eq m c t) cover6

theorem final5 (c : Dev nD) : (dats m 0 c).arrAt 5 cfg0.N
    = outv (V m c main_arg0) (V m c main_arg1) (V m c main_arg2) (V m c main_v38) (maskBit m c) :=
  (dats m 0 c).arrAt_eq_of_cover 5 _ (fun t _ => flushed5_eq m c t) cover5

/-- The bias array is staged by an input window and never written back: after the run it is as the region found it. -/
theorem kept_bias (r : PUnit × MemSt nD τ sig (Elt Ideal)) (h : Pipeline.FramePost cfgs (dats m) 0 (V m) r) (c : Dev nD) :
    r.2.mem ((c : Thread nD τ).loc main_v38) = V m c main_v38 :=
  ((h c).1 3).trans (((dats m 0 c).arrAt_in 3 rfl _).trans (A_eq m c 3))

/-- The kernel's run: the two results are the output and the attention weights of the arrays as the region finds
    them, the bias array is the one the host operations computed, and the arguments are unchanged. -/
theorem run : θ_run defs (onTc (τ := τ) (main (F := Ideal))) ⟨m, fun _ => 0, ρ⟩ fun r => ∀ c : Dev nD,
      r.2.mem ((c : Thread nD τ).loc main_v40_0)
        = outv (V m c main_arg0) (V m c main_arg1) (V m c main_arg2) (V m c main_v38) (maskBit m c)
      ∧ r.2.mem ((c : Thread nD τ).loc main_v40_1)
        = attn (V m c main_arg0) (V m c main_arg1) (V m c main_v38) (maskBit m c)
      ∧ r.2.mem ((c : Thread nD τ).loc main_v38) = V m c main_v38
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(Value.post5 m r h c).trans (final5 m c),
      (Value.post6 m r h c).trans (final6 m c),
      kept_bias m r h c,
      Value.kept_main_arg0 m r h c,
      Value.kept_main_arg1 m r h c,
      Value.kept_main_arg2 m r h c,
      Value.kept_main_arg3 m r h c,
      Value.kept_main_arg4 m r h c,
      Value.kept_main_arg5 m r h c,
      Value.kept_main_arg6 m r h c⟩)
    (run_main m ρ)

end Cert.KernelIdeal.Blocks

end
-- ==== Proof.LibTypedRefCasts.lean ====
/-
  A typed buffer reference carries the type T of the value it holds together with a proof that the buffer's
  own type is T; contents are moved between the two spellings of that one type along the proof. Moving a
  value to the buffer's spelling and back again gives the value: the two moves are transports along a
  proof and along its inverse.
-/
import Idealize.ShloMosaic.Lib.StableHlo.Run

namespace Cert.LibTypedRefCasts

open Idealize.ShloMosaic Idealize.ShloMosaic.StableHlo

variable {sig : RefSig} {Val : EltTy → Type} {T : BufTy}

/-- Contents written at a typed reference and read back through it are unchanged. -/
theorem ofBuf_toBuf (x : TRef sig T) (v : T.Contents Val) : x.ofBuf (x.toBuf v) = v := by
  simp only [TRef.ofBuf, TRef.toBuf, cast_cast, cast_eq]

/-- Contents read through a typed reference and written back through it are unchanged. -/
theorem toBuf_ofBuf (x : TRef sig T) (v : x.ref.ty.Contents Val) : x.toBuf (x.ofBuf v) = v := by
  simp only [TRef.ofBuf, TRef.toBuf, cast_cast, cast_eq]

end Cert.LibTypedRefCasts
-- ==== Proof.KernelBias.lean ====
/-
  The relative-position bias and the widened mask, as the attention region finds them.

  Before its one region the kernel's program computes, with host operations only, two arrays from its
  arguments. The first is the bias: for a batch `b`, a query row `q` and a key column `k`, with the 32-bit
  wrapping distance `n = |-(mem b k - ctx b q)|`, the bucket is

      bucket = if n < 8 then n else min (8 + int (log (float N / 8) / log 16 * 8)) 15,

  to which 16 is added where `-(mem b k - ctx b q)` is negative, 32 more where the sum is negative, and the bias
  is the table's row at that bucket, one column per head, moved to the layout batch, head, row, column.
  The reference takes `N = n`; the kernel takes `N = max n 1`, so that its logarithm is never taken at
  zero. Everything else in the two chains is the same operation on the same operands.

  The two chains agree at every entry: where `n < 8` (signed) the logarithmic branch is not selected,
  and where it is selected `max n 1 = n`. The proof names the kernel's chain through the reference's own
  stages, so that the only place where the two differ is one selection, entry by entry.

  The second array is the mask bit widened to 32 bits: one operation on one argument.
-/
import proofs.«180130_j18442589569166_2_alg».proof.Proof.Gen.KernelIdeal.Frame
import proofs.«180130_j18442589569166_2_alg».proof.Proof.RefRead
import proofs.«180130_j18442589569166_2_alg».proof.Proof.BucketInt
import proofs.«180130_j18442589569166_2_alg».proof.Proof.LibTypedRefCasts
import Idealize.ShloMosaic.Lib.StableHlo.Run

noncomputable section

namespace Cert.KernelIdeal.Bias

open Cert.KernelIdeal Cert.KernelIdeal.Gen Idealize.ShloMosaic Idealize.ShloMosaic.TcCoe Idealize.SL.Sem
open Cert.ReferenceIdeal.ReadP

variable (m : (ℓ : Loc nD τ sig) → Buf (Elt Ideal) ℓ) (c : Dev nD)

/-- The array of batch by row by column entries that are all the 32-bit integer one: the lower clamp of the
    distance under the kernel's logarithm. -/
def ones : (⟨S2x2048x2048, .i32⟩ : BufTy).Contents (Elt Ideal) :=
  broadcastInDim S2x2048x2048 ![] bcast_S_S2x2048x2048 (constantI S_ 32 1#32)

/-- The kernel's bucket array from the query positions `x4` and the key positions `x5`: the distance itself
    where it is below 8, and otherwise `min (8 + int (log (float (max n 1) / 8) / log 16 * 8)) 15`. The
    distance, the comparison with 8 and the constant arrays are the reference's stages; the one operation the
    reference does not have is the maximum with one. -/
def selK (x4 x5 : (⟨S2x2048, .i32⟩ : BufTy).Contents (Elt Ideal)) : (⟨S2x2048x2048, .i32⟩ : BufTy).Contents (Elt Ideal) :=
  select (val_main_v16 (F := Ideal) x4 x5) (val_main_v14 (F := Ideal) x4 x5)
    (minsi (addi (val_main_v26 (F := Ideal))
      (fptosi 32 (mulf (Host.divf (Host.log (Host.divf
        (sitofp (F := Ideal) .f32 (maxsi (val_main_v14 (F := Ideal) x4 x5) ones))
        (val_main_v18 (F := Ideal)))) (val_main_v21 (F := Ideal))) (val_main_v23 (F := Ideal)))))
      (val_main_v28 (F := Ideal)))

/-- From a bucket array `sel` to the bias array, the part of the chain both programs share: add the offset 16
    where the negated position difference is negative, add 32 where the sum is negative, read the table `x3` at that row for
    every head, and move the head axis from last to second. -/
def tailOf (x3 : (⟨S32x16, .f32⟩ : BufTy).Contents (Elt Ideal)) (x4 x5 : (⟨S2x2048, .i32⟩ : BufTy).Contents (Elt Ideal))
    (sel : (⟨S2x2048x2048, .i32⟩ : BufTy).Contents (Elt Ideal)) : (⟨S2x16x2048x2048, .f32⟩ : BufTy).Contents (Elt Ideal) :=
  transpose S2x16x2048x2048 [0, 3, 1, 2]
    (Host.gather gather_S32x16_S2x2048x2048x1_S2x2048x2048x16_3_0_n_n_0_3_116 x3
      (broadcastInDim S2x2048x2048x1 ![0, 1, 2] bcast_S2x2048x2048_S2x2048x2048x1_0_1_2
        (select (cmpi .slt (addi (val_main_v13 (F := Ideal) x4 x5) sel) (val_main_v32 (F := Ideal)))
          (addi (addi (val_main_v13 (F := Ideal) x4 x5) sel) (val_main_v34 (F := Ideal)))
          (addi (val_main_v13 (F := Ideal) x4 x5) sel))))
    transposes_S2x2048x2048x16_S2x16x2048x2048_0_3_1_2

/-- The reference's bias is the shared part of the chain applied to the reference's bucket array: its stages
    after the bucket array, unfolded. -/
theorem ref_tail (x3 : (⟨S32x16, .f32⟩ : BufTy).Contents (Elt Ideal)) (x4 x5 : (⟨S2x2048, .i32⟩ : BufTy).Contents (Elt Ideal)) :
    val_main_v39 (F := Ideal) x3 x4 x5 = tailOf x3 x4 x5 (val_main_v30 (F := Ideal) x4 x5) := rfl

/-- The two bucket arrays are equal. At an entry with distance `n` both are a selection on `n < 8` between `n`
    and one function `g` of an integer, the kernel's at `max n 1` and the reference's at `n`; `g` sends `k` to
    `min (8 + int (log (float k / 8) / log 16 * 8)) 15`. A selection on `n < 8` does not see the difference. -/
theorem selK_eq (x4 x5 : (⟨S2x2048, .i32⟩ : BufTy).Contents (Elt Ideal)) :
    selK x4 x5 = val_main_v30 (F := Ideal) x4 x5 := by
  funext i
  exact Cert.BucketInt.select_small (val_main_v14 (F := Ideal) x4 x5 i) (val_main_v14 (F := Ideal) x4 x5 i)
    (fun k => IntOp.minsi (IntOp.addi (val_main_v26 (F := Ideal) i)
      (FloatOps.fptosi 32 (FloatOps.mulf (FloatOps.hostDivf (FloatOps.hostUnary .log
        (FloatOps.hostDivf (FloatOps.sitofp (F := Ideal) .f32 k) (val_main_v18 (F := Ideal) i))) (val_main_v21 (F := Ideal) i)) (val_main_v23 (F := Ideal) i))))
      (val_main_v28 (F := Ideal) i))

/-- What the region finds in the bias array: the host operations' composed term of the launch contents of the
    table and the two position arrays, which is the shared part of the chain applied to the kernel's bucket
    array. Each host operation's result is its function of its operands' contents; the selection that the
    program makes through a called function moves its operands and its result along proofs that a buffer's
    type is the value's type, and these moves are identities. -/
theorem V_tail : V m c main_v38 = tailOf (m ((c : Thread nD τ).loc main_arg3)) (m ((c : Thread nD τ).loc main_arg4)) (m ((c : Thread nD τ).loc main_arg5))
    (selK (m ((c : Thread nD τ).loc main_arg4)) (m ((c : Thread nD τ).loc main_arg5))) := by
  dsimp only [Gen.V]
  simp only [Gen.hostOps0, Gen.hostOps0_1, Gen.hostOps0_2, List.flatten_cons, List.flatten_nil, List.append_nil, List.cons_append, List.nil_append]
  after_results_simp <;> (try simp only [Cert.LibTypedRefCasts.ofBuf_toBuf, Cert.LibTypedRefCasts.toBuf_ofBuf]) <;> rfl

/-- The region finds, in the bias array, the reference's bias of the launch contents of the table and the two
    position arrays. -/
theorem V_bias : V m c main_v38 = val_main_v39 (F := Ideal) (m ((c : Thread nD τ).loc main_arg3)) (m ((c : Thread nD τ).loc main_arg4)) (m ((c : Thread nD τ).loc main_arg5)) := by
  refine (V_tail m c).trans ?_
  rw [selK_eq]
  exact (ref_tail _ _ _).symm

/-- The region finds, in the widened mask array, the launch contents of the mask with every bit widened to a
    32-bit integer. -/
theorem V_mask : V m c main_v39 = extui 32 (m ((c : Thread nD τ).loc main_arg6)) natLt_1_32 := by
  dsimp only [Gen.V]
  simp only [Gen.hostOps0, Gen.hostOps0_1, Gen.hostOps0_2, List.flatten_cons, List.flatten_nil, List.append_nil, List.cons_append, List.nil_append]
  after_results_simp <;> rfl

end Cert.KernelIdeal.Bias

end
-- ==== Proof.RefRunRead.lean ====
/-
  The reference's run names each of its three results by a composed term of the argument arrays; the same three
  values are built one operation at a time as stages. The two spellings are one term: every stage unfolds to the
  operation applied to the previous stages.
-/
import proofs.«180130_j18442589569166_2_alg».proof.Proof.RefRun
import proofs.«180130_j18442589569166_2_alg».proof.Proof.RefRead

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

/-- The weighted values, as the run names them, are the last stage. -/
theorem val_main_v53_eq (m : (ℓ : Loc nD τ sig) → Buf (Elt F) ℓ) (c : Dev nD) :
    Cert.ReferenceIdeal.ValueP.res_main_v53 m c = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.ValueP.res_main_v53; rfl

/-- The attention weights, as the run names them, are their stage. -/
theorem val_main_v52_eq (m : (ℓ : Loc nD τ sig) → Buf (Elt F) ℓ) (c : Dev nD) :
    Cert.ReferenceIdeal.ValueP.res_main_v52 m c = val_main_v52 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.ValueP.res_main_v52; rfl

/-- The position bias, as the run names it, is its stage. -/
theorem val_main_v39_eq (m : (ℓ : Loc nD τ sig) → Buf (Elt F) ℓ) (c : Dev nD) :
    Cert.ReferenceIdeal.ValueP.res_main_v39 m c = val_main_v39 (F := F) (m ((c.tc : Thread nD τ).loc main_arg3)) (m ((c.tc : Thread nD τ).loc main_arg4)) (m ((c.tc : Thread nD τ).loc main_arg5)) := by
  unfold Cert.ReferenceIdeal.ValueP.res_main_v39; rfl

end Cert.ReferenceIdeal.ReadP

end
-- ==== Proof.RefIsSpec.lean ====
/-
  The reference program computes the attention weights and the output that the common specification names.

  Reading the reference one operation at a time: the queries are divided by 8 and contracted with the keys over the
  feature axis, the position bias is added, and the masked places are replaced by the fill constant; this is the
  score of the specification, place by place. The reference then takes each row's maximum by a fold of the maximum
  from minus infinity over the key axis, takes one more maximum against minus infinity (which changes nothing),
  subtracts it from the row, exponentiates, sums the row from zero, and divides: the stable softmax of the row.
  Last, the weights are contracted with the values over the key axis: the weighted sum of the value rows.

  The position bias is carried along as an unread array: both sides mention it only through its entries.
-/
import proofs.«180130_j18442589569166_2_alg».proof.Proof.RefRead
import proofs.«180130_j18442589569166_2_alg».proof.Proof.AttnSpec
import Idealize.ShloMosaic.PureOps.Reduce
import Idealize.ShloMosaic.PureOps.Ideal.Laws

noncomputable section

namespace Cert.ReferenceIdeal.RefSpec

open Cert.ReferenceIdeal Cert.ReferenceIdeal.Gen Idealize.ShloMosaic Idealize.ShloMosaic.ValueIdx Cert.AttnSpec

variable (x0 x1 x2 : (⟨S2x16x2048x64, .f32⟩ : BufTy).Contents (Elt Ideal))
  (x3 : (⟨S32x16, .f32⟩ : BufTy).Contents (Elt Ideal))
  (x4 x5 : (⟨S2x2048, .i32⟩ : BufTy).Contents (Elt Ideal))
  (x6 : (⟨S2x1x2048x2048, .i1⟩ : BufTy).Contents (Elt Ideal))

/-! ## Where each operation reads its operands, in coordinates -/

/-- The first contraction reads the scaled queries at (b, h, q, d). -/
theorem lidx_v2_ix4 (b : Fin 2) (h : Fin 16) (q k : Fin 2048) (d : Fin 64) :
    ReadP.lidx_main_v2 (ix4 b h q k) d = ix4 b h q d :=
  funext fun a => Fin.ext (by
    match a with
    | ⟨0, _⟩ => rfl
    | ⟨1, _⟩ => rfl
    | ⟨2, _⟩ => rfl
    | ⟨3, _⟩ => rfl)

/-- The first contraction reads the keys at (b, h, k, d). -/
theorem ridx_v2_ix4 (b : Fin 2) (h : Fin 16) (q k : Fin 2048) (d : Fin 64) :
    ReadP.ridx_main_v2 (ix4 b h q k) d = ix4 b h k d :=
  funext fun a => Fin.ext (by
    match a with
    | ⟨0, _⟩ => rfl
    | ⟨1, _⟩ => rfl
    | ⟨2, _⟩ => rfl
    | ⟨3, _⟩ => rfl)

/-- The mask has one head: it is read at (b, 0, q, k). -/
theorem idx_mask_ix4 (b : Fin 2) (h : Fin 16) (q k : Fin 2048) :
    ReadP.idx_main_call1_v1 (ix4 b h q k) = ix4 b (0 : Fin 1) q k :=
  funext fun a => Fin.ext (by
    match a with
    | ⟨0, _⟩ => rfl
    | ⟨1, _⟩ => rfl
    | ⟨2, _⟩ => rfl
    | ⟨3, _⟩ => rfl)

/-- A per-row quantity spread back over the keys is read at the row (b, h, q). -/
theorem idx_v45_v46_ix4 (b : Fin 2) (h : Fin 16) (q k : Fin 2048) :
    ReadP.idx_main_v45 (ReadP.idx_main_v46 (ix4 b h q k)) = ix3 b h q :=
  funext fun a => Fin.ext (by
    match a with
    | ⟨0, _⟩ => rfl
    | ⟨1, _⟩ => rfl
    | ⟨2, _⟩ => rfl)

/-- The same for the row sums. -/
theorem idx_v50_v51_ix4 (b : Fin 2) (h : Fin 16) (q k : Fin 2048) :
    ReadP.idx_main_v50 (ReadP.idx_main_v51 (ix4 b h q k)) = ix3 b h q :=
  funext fun a => Fin.ext (by
    match a with
    | ⟨0, _⟩ => rfl
    | ⟨1, _⟩ => rfl
    | ⟨2, _⟩ => rfl)

/-- The row sum over the keys reads (b, h, q, k). -/
theorem idx_v49_ix3 (b : Fin 2) (h : Fin 16) (q k : Fin 2048) :
    ReadP.idx_main_v49 (ix3 b h q) k = ix4 b h q k :=
  funext fun a => Fin.ext (by
    match a with
    | ⟨0, _⟩ => rfl
    | ⟨1, _⟩ => rfl
    | ⟨2, _⟩ => rfl
    | ⟨3, _⟩ => rfl)

/-- The second contraction reads the weights at (b, h, q, k). -/
theorem lidx_v53_ix4 (b : Fin 2) (h : Fin 16) (q : Fin 2048) (d : Fin 64) (k : Fin 2048) :
    ReadP.lidx_main_v53 (ix4 b h q d) k = ix4 b h q k :=
  funext fun a => Fin.ext (by
    match a with
    | ⟨0, _⟩ => rfl
    | ⟨1, _⟩ => rfl
    | ⟨2, _⟩ => rfl
    | ⟨3, _⟩ => rfl)

/-- The second contraction reads the values at (b, h, k, d). -/
theorem ridx_v53_ix4 (b : Fin 2) (h : Fin 16) (q : Fin 2048) (d : Fin 64) (k : Fin 2048) :
    ReadP.ridx_main_v53 (ix4 b h q d) k = ix4 b h k d :=
  funext fun a => Fin.ext (by
    match a with
    | ⟨0, _⟩ => rfl
    | ⟨1, _⟩ => rfl
    | ⟨2, _⟩ => rfl
    | ⟨3, _⟩ => rfl)

/-! ## The masked scores -/

/-- The masked, biased, scaled scores of the reference are the specification's score, place by place. -/
theorem v41_ix4 (b : Fin 2) (h : Fin 16) (q k : Fin 2048) :
    ReadP.val_main_v41 (F := Ideal) x0 x1 x3 x4 x5 x6 (ix4 b h q k)
      = score x0 x1 (ReadP.val_main_v39 (F := Ideal) x3 x4 x5) x6 b h q k := by
  rw [ReadP.val_main_v41_apply, ReadP.val_main_call1_v1_apply, ReadP.val_main_call1_v2_apply,
    ReadP.val_main_call1_v0_apply, ReadP.val_main_cst_9_apply, ReadP.val_main_v40_apply, ReadP.val_main_v2_apply,
    idx_mask_ix4]
  generalize ReadP.val_main_v39 (F := Ideal) x3 x4 x5 = PB
  have hs : ∀ d : Fin 64,
      ReadP.val_main_v1 (F := Ideal) x0 (ReadP.lidx_main_v2 (ix4 b h q k) d) * x1 (ReadP.ridx_main_v2 (ix4 b h q k) d)
        = Ideal.div (x0 (ix4 b h q d)) eight * x1 (ix4 b h k d) := by
    intro d
    rw [lidx_v2_ix4, ridx_v2_ix4, ReadP.val_main_v1_apply, ReadP.val_main_v0_apply, ReadP.val_main_cst_apply]
    rfl
  rw [Finset.sum_congr rfl (fun d _ => hs d)]
  rfl

/-! ## The row maximum -/

/-- Row (b, h, q) of the result of dropping the key axis, with key `k` put back, is the place (b, h, q, k). -/
theorem lift_ix3 (hr : S2x16x2048x2048.Reduces [3] S2x16x2048) (b : Fin 2) (h : Fin 16) (q : Fin 2048)
    (k : Fin (S2x16x2048x2048.size 3)) :
    hr.lift (ix3 b h q) k = ix4 b h q (⟨k.val, k.isLt⟩ : Fin 2048) := by
  funext c; apply Fin.ext
  fin_cases c <;> rfl

/-- The reference's fold of the maximum from minus infinity over the keys is the row maximum of the scores. -/
theorem v42_ix3 (b : Fin 2) (h : Fin 16) (q : Fin 2048) :
    ReadP.val_main_v42 (F := Ideal) x0 x1 x3 x4 x5 x6 (ix3 b h q)
      = rowMax (score x0 x1 (ReadP.val_main_v39 (F := Ideal) x3 x4 x5) x6 b h q) := by
  have hr : S2x16x2048x2048.Reduces [3] S2x16x2048 := by decide
  unfold ReadP.val_main_v42
  rw [Host.reduce_eq_fold_single FloatOps.maximumf _ _ reducesTo_S2x16x2048x2048_S2x16x2048_d3 hr h_S_]
  have hf : (ReadP.val_main_v41 (F := Ideal) x0 x1 x3 x4 x5 x6 ∘ hr.lift (ix3 b h q))
      = fun k : Fin 2048 => score x0 x1 (ReadP.val_main_v39 (F := Ideal) x3 x4 x5) x6 b h q k :=
    funext fun k => (congrArg (ReadP.val_main_v41 (F := Ideal) x0 x1 x3 x4 x5 x6) (lift_ix3 hr b h q k)).trans
      (v41_ix4 x0 x1 x3 x4 x5 x6 b h q k)
  exact congrArg (fun f => Finset.fold max negInf f (Finset.univ : Finset (Fin 2048))) hf

/-- One more maximum against minus infinity leaves the row maximum as it is. -/
theorem v44_ix3 (b : Fin 2) (h : Fin 16) (q : Fin 2048) :
    ReadP.val_main_v44 (F := Ideal) x0 x1 x3 x4 x5 x6 (ix3 b h q)
      = rowMax (score x0 x1 (ReadP.val_main_v39 (F := Ideal) x3 x4 x5) x6 b h q) := by
  rw [ReadP.val_main_v44_apply, ReadP.val_main_v43_apply, ReadP.val_main_cst_11_apply, v42_ix3]
  exact max_negInf_rowMax _

/-- Spread back over the keys, every place of row (b, h, q) holds the row maximum. -/
theorem v46_ix4 (b : Fin 2) (h : Fin 16) (q k : Fin 2048) :
    ReadP.val_main_v46 (F := Ideal) x0 x1 x3 x4 x5 x6 (ix4 b h q k)
      = rowMax (score x0 x1 (ReadP.val_main_v39 (F := Ideal) x3 x4 x5) x6 b h q) := by
  rw [ReadP.val_main_v46_apply, ReadP.val_main_v45_apply, idx_v45_v46_ix4, v44_ix3]

/-! ## The softmax -/

/-- The exponential of a score less its row maximum. -/
theorem v48_ix4 (b : Fin 2) (h : Fin 16) (q k : Fin 2048) :
    ReadP.val_main_v48 (F := Ideal) x0 x1 x3 x4 x5 x6 (ix4 b h q k)
      = Ideal.exp (score x0 x1 (ReadP.val_main_v39 (F := Ideal) x3 x4 x5) x6 b h q k
          - rowMax (score x0 x1 (ReadP.val_main_v39 (F := Ideal) x3 x4 x5) x6 b h q)) := by
  rw [ReadP.val_main_v48_apply, ReadP.val_main_v47_apply, v41_ix4, v46_ix4]
  rfl

/-- The row's sum of those exponentials: the sum starts from zero, which adds nothing. -/
theorem v49_ix3 (b : Fin 2) (h : Fin 16) (q : Fin 2048) :
    ReadP.val_main_v49 (F := Ideal) x0 x1 x3 x4 x5 x6 (ix3 b h q)
      = ∑ j : Fin 2048, Ideal.exp (score x0 x1 (ReadP.val_main_v39 (F := Ideal) x3 x4 x5) x6 b h q j
          - rowMax (score x0 x1 (ReadP.val_main_v39 (F := Ideal) x3 x4 x5) x6 b h q)) := by
  rw [ReadP.val_main_v49_apply, ReadP.val_main_cst_12_apply]
  refine (congrArg (· + _) Ideal.ofBits_zero_f32).trans ?_
  rw [zero_add]
  refine Finset.sum_congr rfl fun j _ => ?_
  rw [idx_v49_ix3, v48_ix4]

/-- The reference's attention weights are the stable softmax of the score row, place by place. -/
theorem v52_ix4 (b : Fin 2) (h : Fin 16) (q k : Fin 2048) :
    ReadP.val_main_v52 (F := Ideal) x0 x1 x3 x4 x5 x6 (ix4 b h q k)
      = attnAt x0 x1 (ReadP.val_main_v39 (F := Ideal) x3 x4 x5) x6 b h q k := by
  rw [ReadP.val_main_v52_apply, ReadP.val_main_v51_apply, ReadP.val_main_v50_apply, idx_v50_v51_ix4, v48_ix4, v49_ix3]
  rfl

/-- The reference's attention weights are the specification's, as one array. -/
theorem attn_eq :
    ReadP.val_main_v52 (F := Ideal) x0 x1 x3 x4 x5 x6
      = Cert.AttnSpec.attn x0 x1 (ReadP.val_main_v39 (F := Ideal) x3 x4 x5) x6 := by
  funext i
  obtain ⟨b, h, q, k, rfl⟩ : ∃ (b : Fin 2) (h : Fin 16) (q k : Fin 2048), i = ix4 b h q k :=
    ⟨i 0, i 1, i 2, i 3, eq_ix4 i⟩
  rw [attn_ix4]
  exact v52_ix4 x0 x1 x3 x4 x5 x6 b h q k

/-! ## The output -/

/-- The reference's output is the weighted sum of the value rows, as one array. -/
theorem outv_eq :
    ReadP.val_main_v53 (F := Ideal) x0 x1 x2 x3 x4 x5 x6
      = Cert.AttnSpec.outv x0 x1 x2 (ReadP.val_main_v39 (F := Ideal) x3 x4 x5) x6 := by
  funext i
  obtain ⟨b, h, q, d, rfl⟩ : ∃ (b : Fin 2) (h : Fin 16) (q : Fin 2048) (d : Fin 64), i = ix4 b h q d :=
    ⟨i 0, i 1, i 2, i 3, eq_ix4 i⟩
  rw [outv_ix4, ReadP.val_main_v53_apply]
  unfold outAt
  refine Finset.sum_congr rfl fun k _ => ?_
  rw [lidx_v53_ix4, ridx_v53_ix4, v52_ix4]

end Cert.ReferenceIdeal.RefSpec

end
-- ==== Proof.lean ====
/-
  A fused attention kernel against its reference program, over the extended reals.

  Both programs take queries, keys and values `Q, K, V : [2, 16, 2048, 64]`, a bias table, two position vectors and a
  boolean mask `[2, 1, 2048, 2048]`, and return the output `[2, 16, 2048, 64]`, the attention weights
  `[2, 16, 2048, 2048]` and the position bias `[2, 16, 2048, 2048]`.

  * The position bias is computed by host operations in both programs, the same ones but for one: the logarithmic
    bucket of a distance `n` is taken of `max n 1` in the kernel's program and of `n` in the reference. The bucket is
    only selected where `¬ n < 8`, and there `max n 1 = n` (Proof/BucketInt.lean, Proof/KernelBias.lean).
  * The kernel's grid is 2 × 16 × 8: a point holds 256 query rows of one batch and head, all 2048 key and value
    rows, and the matching rows of the bias and the mask. Its body forms the scores `(Q/8)·Kᵀ + bias`, replaces the
    masked ones by the fill constant, takes the stable softmax of each row and multiplies by the values
    (Proof/KernelRow.lean); the blocks written back tile the two result arrays (Proof/KernelBlocks.lean).
  * The reference does the same on whole arrays: a division by 8 where the kernel multiplies by 1/8, one more
    maximum against `-∞`, sums from 0 (Proof/RefIsSpec.lean).
  Both are the functions `Cert.AttnSpec.outv` and `Cert.AttnSpec.attn` of the argument arrays and the position bias
  (Proof/AttnSpec.lean). No step needs the inputs to be finite: every law used (commutativity and associativity of
  finite sums, `x · (1/8) = x / 8`, `max a (max-fold from a) = max-fold from a`) holds on all extended reals.

  The ideal pass rewrote nothing in the kernel, so `preserves` is `True`.
-/
import proofs.«180130_j18442589569166_2_alg».proof.Defs
import proofs.«180130_j18442589569166_2_alg».proof.Proof.Gen.Kernel
import proofs.«180130_j18442589569166_2_alg».proof.Proof.Gen.Kernel.Frame
import proofs.«180130_j18442589569166_2_alg».proof.Proof.Gen.KernelIdeal
import proofs.«180130_j18442589569166_2_alg».proof.Proof.Gen.KernelIdeal.Frame
import proofs.«180130_j18442589569166_2_alg».proof.Proof.Gen.KernelIdeal.Value
import proofs.«180130_j18442589569166_2_alg».proof.Proof.Gen.ReferenceIdeal
import proofs.«180130_j18442589569166_2_alg».proof.Proof.Gen.Pre_finite_inputs
import proofs.«180130_j18442589569166_2_alg».proof.Proof.AttnSpec
import proofs.«180130_j18442589569166_2_alg».proof.Proof.BucketInt
import proofs.«180130_j18442589569166_2_alg».proof.Proof.KernelBlocks
import proofs.«180130_j18442589569166_2_alg».proof.Proof.KernelBias
import proofs.«180130_j18442589569166_2_alg».proof.Proof.RefRun
import proofs.«180130_j18442589569166_2_alg».proof.Proof.RefRead
import proofs.«180130_j18442589569166_2_alg».proof.Proof.RefRunRead
import proofs.«180130_j18442589569166_2_alg».proof.Proof.RefIsSpec
import Idealize.ShloMosaic.Adequacy
import Idealize.ShloMosaic.Init

noncomputable section

namespace Cert.Proof

open Idealize.ShloMosaic Idealize.ShloMosaic.TcCoe Idealize.SL.Sem

/-! ## The kernel's run, stated over the launch memory -/

section KernelSide

open Cert.KernelIdeal Cert.KernelIdeal.Gen

variable (m : (ℓ : Loc nD τ sig) → Buf (Elt Ideal) ℓ)

/-- The position bias, as a function of the launch memory. -/
def bias (c : Dev nD) : Cert.AttnSpec.SA.Idx → EReal :=
  Cert.ReferenceIdeal.ReadP.val_main_v39 (F := Ideal) (m ((c : Thread nD τ).loc main_arg3))
    (m ((c : Thread nD τ).loc main_arg4)) (m ((c : Thread nD τ).loc main_arg5))

/-- The body's test on the widened mask is the mask itself. -/
theorem maskBit_eq (c : Dev nD) : Cert.KernelIdeal.Blocks.maskBit m c = m ((c : Thread nD τ).loc main_arg6) := by
  funext i
  unfold Cert.KernelIdeal.Blocks.maskBit
  rw [Cert.KernelIdeal.Bias.V_mask]
  exact Cert.BucketInt.ne_zero_setWidth _

end KernelSide

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

theorem preserves : Cert.preserves_Kernel_KernelIdeal := trivial

/-- Both programs end with the output, the attention weights and the position bias of the specification at the
    argument arrays; the memories agree on the arguments. -/
theorem algebraic : Cert.algebraic_KernelIdeal_ReferenceIdeal := by
  intro m ρ m' ρ' _ hagree
  refine ⟨fun c => Cert.AttnSpec.outv (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (bias m c) (m ((c.tc : Thread Cert.KernelIdeal.nD Cert.KernelIdeal.τ).loc Cert.KernelIdeal.main_arg6)),
      fun c => Cert.AttnSpec.attn (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (bias m c) (m ((c.tc : Thread Cert.KernelIdeal.nD Cert.KernelIdeal.τ).loc Cert.KernelIdeal.main_arg6)),
      fun c => bias m c, ?_, ?_⟩
  · refine (θ_run Cert.KernelIdeal.defs _ _).mono (fun r h c => ?_) (Cert.KernelIdeal.Blocks.run m ρ)
    obtain ⟨h0, h1, h2, k⟩ := h c
    refine ⟨h0.trans ?_, h1.trans ?_, h2.trans ?_, k⟩
    · rw [Cert.KernelIdeal.Gen.V_main_arg0, Cert.KernelIdeal.Gen.V_main_arg1, Cert.KernelIdeal.Gen.V_main_arg2,
        Cert.KernelIdeal.Bias.V_bias, maskBit_eq]
      rfl
    · rw [Cert.KernelIdeal.Gen.V_main_arg0, Cert.KernelIdeal.Gen.V_main_arg1,
        Cert.KernelIdeal.Bias.V_bias, maskBit_eq]
      rfl
    · rw [Cert.KernelIdeal.Bias.V_bias]
      rfl
  · refine (θ_run Cert.ReferenceIdeal.defs _ _).mono (fun r h c => ?_) (Cert.ReferenceIdeal.ValueP.run (F := Ideal) m' ρ')
    obtain ⟨h0, h1, h2, k⟩ := h c
    obtain ⟨g0, g1, g2, g3, g4, g5, g6⟩ := hagree c
    refine ⟨h0.trans ?_, h1.trans ?_, h2.trans ?_, k⟩
    · rw [Cert.ReferenceIdeal.ReadP.val_main_v53_eq, Cert.ReferenceIdeal.RefSpec.outv_eq, g0, g1, g2, g3, g4, g5, g6]
      rfl
    · rw [Cert.ReferenceIdeal.ReadP.val_main_v52_eq, Cert.ReferenceIdeal.RefSpec.attn_eq, g0, g1, g3, g4, g5, g6]
      rfl
    · rw [Cert.ReferenceIdeal.ReadP.val_main_v39_eq, g3, g4, g5]
      rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
